-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v204) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x32x56x56 : Shape := ⟨4, ![16, 32, 56, 56]⟩
abbrev S64x32x3x3 : Shape := ⟨4, ![64, 32, 3, 3]⟩
abbrev S_ : Shape := ⟨0, ![]⟩

class Facts : Prop where
  bcast_S_S16x32x56x56 : S_.BroadcastsInDim S16x32x56x56 (![] : Fin 0 → Fin S16x32x56x56.rank)
  reducesTo_S16x32x56x56_S_d0_1_2_3 : S16x32x56x56.ReducesTo [0, 1, 2, 3] S_
  h_S_ : 0 < S_.numel
  bcast_S_S64x32x3x3 : S_.BroadcastsInDim S64x32x3x3 (![] : Fin 0 → Fin S64x32x3x3.rank)
  reducesTo_S64x32x3x3_S_d0_1_2_3 : S64x32x3x3.ReducesTo [0, 1, 2, 3] S_

variable [Facts]

def fn {F : FTy → Type} [FloatOps F] (main_arg0 : FVec F S16x32x56x56 .f32) (main_arg1 : FVec F S64x32x3x3 .f32) : IVec S_ 1 :=
  let main_v0 : FVec F S16x32x56x56 .f32 := Host.absf main_arg0
  let main_cst : FVec F S_ .f32 := constant S_ .f32 0x7F800000#32
  let main_v1 : FVec F S16x32x56x56 .f32 := broadcastInDim S16x32x56x56 ![] bcast_S_S16x32x56x56 main_cst
  let main_v2 : IVec S16x32x56x56 1 := cmpf .olt main_v0 main_v1
  let main_c : IVec S_ 1 := constantI S_ 1 1#1
  let main_v3 : IVec S_ 1 := (fun x v => Host.reduce IntOp.andi x v reducesTo_S16x32x56x56_S_d0_1_2_3 h_S_) main_v2 main_c
  let main_v4 : FVec F S64x32x3x3 .f32 := Host.absf main_arg1
  let main_cst_0 : FVec F S_ .f32 := constant S_ .f32 0x7F800000#32
  let main_v5 : FVec F S64x32x3x3 .f32 := broadcastInDim S64x32x3x3 ![] bcast_S_S64x32x3x3 main_cst_0
  let main_v6 : IVec S64x32x3x3 1 := cmpf .olt main_v4 main_v5
  let main_c_1 : IVec S_ 1 := constantI S_ 1 1#1
  let main_v7 : IVec S_ 1 := (fun x v => Host.reduce IntOp.andi x v reducesTo_S64x32x3x3_S_d0_1_2_3 h_S_) main_v6 main_c_1
  let main_v8 : IVec S_ 1 := andi main_v3 main_v7
  main_v8
-- ==== Kernel.lean ====
abbrev S16x32x56x56 : Shape := ⟨4, ![16, 32, 56, 56]⟩
abbrev S64x32x3x3 : Shape := ⟨4, ![64, 32, 3, 3]⟩
abbrev S_ : Shape := ⟨0, ![]⟩
abbrev S16x32x58x58 : Shape := ⟨4, ![16, 32, 58, 58]⟩
abbrev S16x32x1x56x56 : Shape := ⟨5, ![16, 32, 1, 56, 56]⟩
abbrev S16x32x9x56x56 : Shape := ⟨5, ![16, 32, 9, 56, 56]⟩
abbrev S16x288x3136 : Shape := ⟨3, ![16, 288, 3136]⟩
abbrev S64x288 : Shape := ⟨2, ![64, 288]⟩
abbrev S16x64x3136 : Shape := ⟨3, ![16, 64, 3136]⟩
abbrev S1x288x3136 : Shape := ⟨3, ![1, 288, 3136]⟩
abbrev S16x288 : Shape := ⟨2, ![16, 288]⟩
abbrev S1x16x3136 : Shape := ⟨3, ![1, 16, 3136]⟩
abbrev S288x3136 : Shape := ⟨2, ![288, 3136]⟩
abbrev S16x3136 : Shape := ⟨2, ![16, 3136]⟩
abbrev S16x16 : Shape := ⟨2, ![16, 16]⟩
abbrev S16x16x1 : Shape := ⟨3, ![16, 16, 1]⟩
abbrev S16x16x3136 : Shape := ⟨3, ![16, 16, 3136]⟩
abbrev S16x64x56x56 : Shape := ⟨4, ![16, 64, 56, 56]⟩

abbrev nBuf : Space → Nat
  | .hbm => 28
  | .vmem => 6
  | .smem => 0
  | _ => 0

abbrev bufTy : (tb : Table) → Fin (tcTables nBuf tb) → BufTy
  | .hbm, ⟨0, _⟩ => ⟨S16x32x56x56, .f32⟩
  | .hbm, ⟨1, _⟩ => ⟨S64x32x3x3, .f32⟩
  | .hbm, ⟨2, _⟩ => ⟨S_, .i32⟩
  | .hbm, ⟨3, _⟩ => ⟨S_, .f32⟩
  | .hbm, ⟨4, _⟩ => ⟨S16x32x58x58, .f32⟩
  | .hbm, ⟨5, _⟩ => ⟨S16x32x56x56, .f32⟩
  | .hbm, ⟨6, _⟩ => ⟨S16x32x56x56, .f32⟩
  | .hbm, ⟨7, _⟩ => ⟨S16x32x56x56, .f32⟩
  | .hbm, ⟨8, _⟩ => ⟨S16x32x56x56, .f32⟩
  | .hbm, ⟨9, _⟩ => ⟨S16x32x56x56, .f32⟩
  | .hbm, ⟨10, _⟩ => ⟨S16x32x56x56, .f32⟩
  | .hbm, ⟨11, _⟩ => ⟨S16x32x56x56, .f32⟩
  | .hbm, ⟨12, _⟩ => ⟨S16x32x56x56, .f32⟩
  | .hbm, ⟨13, _⟩ => ⟨S16x32x56x56, .f32⟩
  | .hbm, ⟨14, _⟩ => ⟨S16x32x1x56x56, .f32⟩
  | .hbm, ⟨15, _⟩ => ⟨S16x32x1x56x56, .f32⟩
  | .hbm, ⟨16, _⟩ => ⟨S16x32x1x56x56, .f32⟩
  | .hbm, ⟨17, _⟩ => ⟨S16x32x1x56x56, .f32⟩
  | .hbm, ⟨18, _⟩ => ⟨S16x32x1x56x56, .f32⟩
  | .hbm, ⟨19, _⟩ => ⟨S16x32x1x56x56, .f32⟩
  | .hbm, ⟨20, _⟩ => ⟨S16x32x1x56x56, .f32⟩
  | .hbm, ⟨21, _⟩ => ⟨S16x32x1x56x56, .f32⟩
  | .hbm, ⟨22, _⟩ => ⟨S16x32x1x56x56, .f32⟩
  | .hbm, ⟨23, _⟩ => ⟨S16x32x9x56x56, .f32⟩
  | .hbm, ⟨24, _⟩ => ⟨S16x288x3136, .f32⟩
  | .hbm, ⟨25, _⟩ => ⟨S64x288, .f32⟩
  | .hbm, ⟨26, _⟩ => ⟨S16x64x3136, .f32⟩
  | .hbm, ⟨27, _⟩ => ⟨S16x64x56x56, .f32⟩
  | .local _ .vmem, ⟨0, _⟩ => ⟨S1x288x3136, .f32⟩
  | .local _ .vmem, ⟨1, _⟩ => ⟨S1x288x3136, .f32⟩
  | .local _ .vmem, ⟨2, _⟩ => ⟨S16x288, .f32⟩
  | .local _ .vmem, ⟨3, _⟩ => ⟨S16x288, .f32⟩
  | .local _ .vmem, ⟨4, _⟩ => ⟨S1x16x3136, .f32⟩
  | .local _ .vmem, ⟨5, _⟩ => ⟨S1x16x3136, .f32⟩
  | _, _ => ⟨S16x32x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x288x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x16x3136 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  pads_S16x32x56x56_S16x32x58x58_000_000_110_110 : S16x32x56x56.Pads (![0, 0, 1, 1] : Fin 4 → Nat) ![0, 0, 1, 1] ![0, 0, 0, 0] S16x32x58x58
  h_S_ : 0 < S_.numel
  slices_S16x32x58x58_S16x32x56x56_0_0_0_0 : S16x32x58x58.Slices ![0, 0, 0, 0] S16x32x56x56
  slices_S16x32x58x58_S16x32x56x56_0_0_0_1 : S16x32x58x58.Slices ![0, 0, 0, 1] S16x32x56x56
  slices_S16x32x58x58_S16x32x56x56_0_0_0_2 : S16x32x58x58.Slices ![0, 0, 0, 2] S16x32x56x56
  slices_S16x32x58x58_S16x32x56x56_0_0_1_0 : S16x32x58x58.Slices ![0, 0, 1, 0] S16x32x56x56
  slices_S16x32x58x58_S16x32x56x56_0_0_1_1 : S16x32x58x58.Slices ![0, 0, 1, 1] S16x32x56x56
  slices_S16x32x58x58_S16x32x56x56_0_0_1_2 : S16x32x58x58.Slices ![0, 0, 1, 2] S16x32x56x56
  slices_S16x32x58x58_S16x32x56x56_0_0_2_0 : S16x32x58x58.Slices ![0, 0, 2, 0] S16x32x56x56
  slices_S16x32x58x58_S16x32x56x56_0_0_2_1 : S16x32x58x58.Slices ![0, 0, 2, 1] S16x32x56x56
  slices_S16x32x58x58_S16x32x56x56_0_0_2_2 : S16x32x58x58.Slices ![0, 0, 2, 2] S16x32x56x56
  bcast_S16x32x56x56_S16x32x1x56x56_0_1_3_4 : S16x32x56x56.BroadcastsInDim S16x32x1x56x56 (![0, 1, 3, 4] : Fin 4 → Fin S16x32x1x56x56.rank)
  concatenates_S16x32x1x56x56_S16x32x1x56x56_S16x32x1x56x56_S16x32x1x56x56_S16x32x1x56x56_S16x32x1x56x56_S16x32x1x56x56_S16x32x1x56x56_S16x32x1x56x56_S16x32x9x56x56_d2 : Shape.Concatenates [S16x32x1x56x56, S16x32x1x56x56, S16x32x1x56x56, S16x32x1x56x56, S16x32x1x56x56, S16x32x1x56x56, S16x32x1x56x56, S16x32x1x56x56, S16x32x1x56x56] S16x32x9x56x56 2
  shapeCasts_S16x32x9x56x56_S16x288x3136 : S16x32x9x56x56.ShapeCasts S16x288x3136
  shapeCasts_S64x32x3x3_S64x288 : S64x32x3x3.ShapeCasts S64x288
  inb_S1x288x3136_S1x288x3136_0_0_0 : ∀ a, (![0, 0, 0] : Fin 3 → Nat) a + S1x288x3136.size a ≤ S1x288x3136.size a
  h_S1x288x3136 : 0 < S1x288x3136.numel
  shapeCasts_S1x288x3136_S288x3136 : S1x288x3136.ShapeCasts S288x3136
  inb_S16x288_S16x288_0_0 : ∀ a, (![0, 0] : Fin 2 → Nat) a + S16x288.size a ≤ S16x288.size a
  h_S16x288 : 0 < S16x288.numel
  shapeCasts_S16x288_S16x288 : S16x288.ShapeCasts S16x288
  slices_S288x3136_o0_0_S16x3136 : S288x3136.Slices ![0, 0] S16x3136
  slices_S16x288_o0_0_S16x16 : S16x288.Slices ![0, 0] S16x16
  shapeCasts_S16x3136_S1x16x3136 : S16x3136.ShapeCasts S1x16x3136
  shapeCasts_S16x16_S16x16x1 : S16x16.ShapeCasts S16x16x1
  broadcasts_S1x16x3136_S16x16x3136 : S1x16x3136.Broadcasts S16x16x3136
  broadcasts_S16x16x1_S16x16x3136 : S16x16x1.Broadcasts S16x16x3136
  reduces_S16x16x3136_S16x3136 : S16x16x3136.Reduces [1] S16x3136
  slices_S288x3136_o16_0_S16x3136 : S288x3136.Slices ![16, 0] S16x3136
  slices_S16x288_o0_16_S16x16 : S16x288.Slices ![0, 16] S16x16
  slices_S288x3136_o32_0_S16x3136 : S288x3136.Slices ![32, 0] S16x3136
  slices_S16x288_o0_32_S16x16 : S16x288.Slices ![0, 32] S16x16
  slices_S288x3136_o48_0_S16x3136 : S288x3136.Slices ![48, 0] S16x3136
  slices_S16x288_o0_48_S16x16 : S16x288.Slices ![0, 48] S16x16
  slices_S288x3136_o64_0_S16x3136 : S288x3136.Slices ![64, 0] S16x3136
  slices_S16x288_o0_64_S16x16 : S16x288.Slices ![0, 64] S16x16
  slices_S288x3136_o80_0_S16x3136 : S288x3136.Slices ![80, 0] S16x3136
  slices_S16x288_o0_80_S16x16 : S16x288.Slices ![0, 80] S16x16
  slices_S288x3136_o96_0_S16x3136 : S288x3136.Slices ![96, 0] S16x3136
  slices_S16x288_o0_96_S16x16 : S16x288.Slices ![0, 96] S16x16
  slices_S288x3136_o112_0_S16x3136 : S288x3136.Slices ![112, 0] S16x3136
  slices_S16x288_o0_112_S16x16 : S16x288.Slices ![0, 112] S16x16
  slices_S288x3136_o128_0_S16x3136 : S288x3136.Slices ![128, 0] S16x3136
  slices_S16x288_o0_128_S16x16 : S16x288.Slices ![0, 128] S16x16
  slices_S288x3136_o144_0_S16x3136 : S288x3136.Slices ![144, 0] S16x3136
  slices_S16x288_o0_144_S16x16 : S16x288.Slices ![0, 144] S16x16
  slices_S288x3136_o160_0_S16x3136 : S288x3136.Slices ![160, 0] S16x3136
  slices_S16x288_o0_160_S16x16 : S16x288.Slices ![0, 160] S16x16
  slices_S288x3136_o176_0_S16x3136 : S288x3136.Slices ![176, 0] S16x3136
  slices_S16x288_o0_176_S16x16 : S16x288.Slices ![0, 176] S16x16
  slices_S288x3136_o192_0_S16x3136 : S288x3136.Slices ![192, 0] S16x3136
  slices_S16x288_o0_192_S16x16 : S16x288.Slices ![0, 192] S16x16
  slices_S288x3136_o208_0_S16x3136 : S288x3136.Slices ![208, 0] S16x3136
  slices_S16x288_o0_208_S16x16 : S16x288.Slices ![0, 208] S16x16
  slices_S288x3136_o224_0_S16x3136 : S288x3136.Slices ![224, 0] S16x3136
  slices_S16x288_o0_224_S16x16 : S16x288.Slices ![0, 224] S16x16
  slices_S288x3136_o240_0_S16x3136 : S288x3136.Slices ![240, 0] S16x3136
  slices_S16x288_o0_240_S16x16 : S16x288.Slices ![0, 240] S16x16
  slices_S288x3136_o256_0_S16x3136 : S288x3136.Slices ![256, 0] S16x3136
  slices_S16x288_o0_256_S16x16 : S16x288.Slices ![0, 256] S16x16
  slices_S288x3136_o272_0_S16x3136 : S288x3136.Slices ![272, 0] S16x3136
  slices_S16x288_o0_272_S16x16 : S16x288.Slices ![0, 272] S16x16
  inb_S1x16x3136_S1x16x3136_0_0_0 : ∀ a, (![0, 0, 0] : Fin 3 → Nat) a + S1x16x3136.size a ≤ S1x16x3136.size a
  h_S1x16x3136 : 0 < S1x16x3136.numel
  shapeCasts_S1x16x3136_S16x3136 : S1x16x3136.ShapeCasts S16x3136
  shapeCasts_S16x64x3136_S16x64x56x56 : S16x64x3136.ShapeCasts S16x64x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x288x3136.size a ≤ S16x288x3136.size a
  hwx0_0 : ∀ i : grid0.Coords, EltTy.bits .f32 = 32 ∨ (Rect.block (s := S16x288x3136) S1x288x3136.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x288.size a ≤ S64x288.size a
  hwx0_1 : ∀ i : grid0.Coords, EltTy.bits .f32 = 32 ∨ (Rect.block (s := S64x288) S16x288.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x3136.size a ≤ S16x64x3136.size a
  hwx0_2 : ∀ i : grid0.Coords, EltTy.bits .f32 = 32 ∨ (Rect.block (s := S16x64x3136) S1x16x3136.size (cc0_transform_2 i) (hinb0_2 i)).WholeWords (EltTy.packing .f32)

variable [Facts₀]

abbrev win0_0 : Pipeline.Window sig grid0 :=
  Pipeline.Window.ofSpec (Memref.whole main_v20) S1x288x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S16x288.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x16x3136.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x32x56x56 : Shape := ⟨4, ![16, 32, 56, 56]⟩
abbrev S64x32x3x3 : Shape := ⟨4, ![64, 32, 3, 3]⟩
abbrev S_ : Shape := ⟨0, ![]⟩
abbrev S16x32x58x58 : Shape := ⟨4, ![16, 32, 58, 58]⟩
abbrev S16x32x1x56x56 : Shape := ⟨5, ![16, 32, 1, 56, 56]⟩
abbrev S16x32x9x56x56 : Shape := ⟨5, ![16, 32, 9, 56, 56]⟩
abbrev S16x288x3136 : Shape := ⟨3, ![16, 288, 3136]⟩
abbrev S64x288 : Shape := ⟨2, ![64, 288]⟩
abbrev S16x64x3136 : Shape := ⟨3, ![16, 64, 3136]⟩
abbrev S16x16x3136 : Shape := ⟨3, ![16, 16, 3136]⟩
abbrev S64x16 : Shape := ⟨2, ![64, 16]⟩
abbrev S16x1x16x3136 : Shape := ⟨4, ![16, 1, 16, 3136]⟩
abbrev S1x64x16x1 : Shape := ⟨4, ![1, 64, 16, 1]⟩
abbrev S16x64x16x3136 : Shape := ⟨4, ![16, 64, 16, 3136]⟩
abbrev S16x64x56x56 : Shape := ⟨4, ![16, 64, 56, 56]⟩

abbrev nBuf : Space → Nat
  | .hbm => 228
  | .vmem => 0
  | .smem => 0
  | _ => 0

abbrev hbmTy0_0 (i : Nat) : BufTy := match i % 128 with
  | 0 => ⟨S16x32x56x56, .f32⟩
  | 1 => ⟨S64x32x3x3, .f32⟩
  | 2 => ⟨S_, .i32⟩
  | 3 => ⟨S_, .f32⟩
  | 4 => ⟨S16x32x58x58, .f32⟩
  | 5 => ⟨S16x32x56x56, .f32⟩
  | 6 => ⟨S16x32x56x56, .f32⟩
  | 7 => ⟨S16x32x56x56, .f32⟩
  | 8 => ⟨S16x32x56x56, .f32⟩
  | 9 => ⟨S16x32x56x56, .f32⟩
  | 10 => ⟨S16x32x56x56, .f32⟩
  | 11 => ⟨S16x32x56x56, .f32⟩
  | 12 => ⟨S16x32x56x56, .f32⟩
  | 13 => ⟨S16x32x56x56, .f32⟩
  | 14 => ⟨S16x32x1x56x56, .f32⟩
  | 15 => ⟨S16x32x1x56x56, .f32⟩
  | 16 => ⟨S16x32x1x56x56, .f32⟩
  | 17 => ⟨S16x32x1x56x56, .f32⟩
  | 18 => ⟨S16x32x1x56x56, .f32⟩
  | 19 => ⟨S16x32x1x56x56, .f32⟩
  | 20 => ⟨S16x32x1x56x56, .f32⟩
  | 21 => ⟨S16x32x1x56x56, .f32⟩
  | 22 => ⟨S16x32x1x56x56, .f32⟩
  | 23 => ⟨S16x32x9x56x56, .f32⟩
  | 24 => ⟨S16x288x3136, .f32⟩
  | 25 => ⟨S64x288, .f32⟩
  | 26 => ⟨S_, .f32⟩
  | 27 => ⟨S16x64x3136, .f32⟩
  | 28 => ⟨S16x16x3136, .f32⟩
  | 29 => ⟨S64x16, .f32⟩
  | 30 => ⟨S16x1x16x3136, .f32⟩
  | 31 => ⟨S1x64x16x1, .f32⟩
  | 32 => ⟨S16x64x16x3136, .f32⟩
  | 33 => ⟨S16x64x16x3136, .f32⟩
  | 34 => ⟨S16x64x16x3136, .f32⟩
  | 35 => ⟨S16x64x16x3136, .f32⟩
  | 36 => ⟨S_, .f32⟩
  | 37 => ⟨S16x64x3136, .f32⟩
  | 38 => ⟨S16x64x3136, .f32⟩
  | 39 => ⟨S16x16x3136, .f32⟩
  | 40 => ⟨S64x16, .f32⟩
  | 41 => ⟨S16x1x16x3136, .f32⟩
  | 42 => ⟨S1x64x16x1, .f32⟩
  | 43 => ⟨S16x64x16x3136, .f32⟩
  | 44 => ⟨S16x64x16x3136, .f32⟩
  | 45 => ⟨S16x64x16x3136, .f32⟩
  | 46 => ⟨S16x64x16x3136, .f32⟩
  | 47 => ⟨S_, .f32⟩
  | 48 => ⟨S16x64x3136, .f32⟩
  | 49 => ⟨S16x64x3136, .f32⟩
  | 50 => ⟨S16x16x3136, .f32⟩
  | 51 => ⟨S64x16, .f32⟩
  | 52 => ⟨S16x1x16x3136, .f32⟩
  | 53 => ⟨S1x64x16x1, .f32⟩
  | 54 => ⟨S16x64x16x3136, .f32⟩
  | 55 => ⟨S16x64x16x3136, .f32⟩
  | 56 => ⟨S16x64x16x3136, .f32⟩
  | 57 => ⟨S16x64x16x3136, .f32⟩
  | 58 => ⟨S_, .f32⟩
  | 59 => ⟨S16x64x3136, .f32⟩
  | 60 => ⟨S16x64x3136, .f32⟩
  | 61 => ⟨S16x16x3136, .f32⟩
  | 62 => ⟨S64x16, .f32⟩
  | 63 => ⟨S16x1x16x3136, .f32⟩
  | 64 => ⟨S1x64x16x1, .f32⟩
  | 65 => ⟨S16x64x16x3136, .f32⟩
  | 66 => ⟨S16x64x16x3136, .f32⟩
  | 67 => ⟨S16x64x16x3136, .f32⟩
  | 68 => ⟨S16x64x16x3136, .f32⟩
  | 69 => ⟨S_, .f32⟩
  | 70 => ⟨S16x64x3136, .f32⟩
  | 71 => ⟨S16x64x3136, .f32⟩
  | 72 => ⟨S16x16x3136, .f32⟩
  | 73 => ⟨S64x16, .f32⟩
  | 74 => ⟨S16x1x16x3136, .f32⟩
  | 75 => ⟨S1x64x16x1, .f32⟩
  | 76 => ⟨S16x64x16x3136, .f32⟩
  | 77 => ⟨S16x64x16x3136, .f32⟩
  | 78 => ⟨S16x64x16x3136, .f32⟩
  | 79 => ⟨S16x64x16x3136, .f32⟩
  | 80 => ⟨S_, .f32⟩
  | 81 => ⟨S16x64x3136, .f32⟩
  | 82 => ⟨S16x64x3136, .f32⟩
  | 83 => ⟨S16x16x3136, .f32⟩
  | 84 => ⟨S64x16, .f32⟩
  | 85 => ⟨S16x1x16x3136, .f32⟩
  | 86 => ⟨S1x64x16x1, .f32⟩
  | 87 => ⟨S16x64x16x3136, .f32⟩
  | 88 => ⟨S16x64x16x3136, .f32⟩
  | 89 => ⟨S16x64x16x3136, .f32⟩
  | 90 => ⟨S16x64x16x3136, .f32⟩
  | 91 => ⟨S_, .f32⟩
  | 92 => ⟨S16x64x3136, .f32⟩
  | 93 => ⟨S16x64x3136, .f32⟩
  | 94 => ⟨S16x16x3136, .f32⟩
  | 95 => ⟨S64x16, .f32⟩
  | 96 => ⟨S16x1x16x3136, .f32⟩
  | 97 => ⟨S1x64x16x1, .f32⟩
  | 98 => ⟨S16x64x16x3136, .f32⟩
  | 99 => ⟨S16x64x16x3136, .f32⟩
  | 100 => ⟨S16x64x16x3136, .f32⟩
  | 101 => ⟨S16x64x16x3136, .f32⟩
  | 102 => ⟨S_, .f32⟩
  | 103 => ⟨S16x64x3136, .f32⟩
  | 104 => ⟨S16x64x3136, .f32⟩
  | 105 => ⟨S16x16x3136, .f32⟩
  | 106 => ⟨S64x16, .f32⟩
  | 107 => ⟨S16x1x16x3136, .f32⟩
  | 108 => ⟨S1x64x16x1, .f32⟩
  | 109 => ⟨S16x64x16x3136, .f32⟩
  | 110 => ⟨S16x64x16x3136, .f32⟩
  | 111 => ⟨S16x64x16x3136, .f32⟩
  | 112 => ⟨S16x64x16x3136, .f32⟩
  | 113 => ⟨S_, .f32⟩
  | 114 => ⟨S16x64x3136, .f32⟩
  | 115 => ⟨S16x64x3136, .f32⟩
  | 116 => ⟨S16x16x3136, .f32⟩
  | 117 => ⟨S64x16, .f32⟩
  | 118 => ⟨S16x1x16x3136, .f32⟩
  | 119 => ⟨S1x64x16x1, .f32⟩
  | 120 => ⟨S16x64x16x3136, .f32⟩
  | 121 => ⟨S16x64x16x3136, .f32⟩
  | 122 => ⟨S16x64x16x3136, .f32⟩
  | 123 => ⟨S16x64x16x3136, .f32⟩
  | 124 => ⟨S_, .f32⟩
  | 125 => ⟨S16x64x3136, .f32⟩
  | 126 => ⟨S16x64x3136, .f32⟩
  | 127 => ⟨S16x16x3136, .f32⟩
  | _ => ⟨S16x32x56x56, .f32⟩

abbrev hbmTy0_1 (i : Nat) : BufTy := match i % 128 with
  | 0 => ⟨S64x16, .f32⟩
  | 1 => ⟨S16x1x16x3136, .f32⟩
  | 2 => ⟨S1x64x16x1, .f32⟩
  | 3 => ⟨S16x64x16x3136, .f32⟩
  | 4 => ⟨S16x64x16x3136, .f32⟩
  | 5 => ⟨S16x64x16x3136, .f32⟩
  | 6 => ⟨S16x64x16x3136, .f32⟩
  | 7 => ⟨S_, .f32⟩
  | 8 => ⟨S16x64x3136, .f32⟩
  | 9 => ⟨S16x64x3136, .f32⟩
  | 10 => ⟨S16x16x3136, .f32⟩
  | 11 => ⟨S64x16, .f32⟩
  | 12 => ⟨S16x1x16x3136, .f32⟩
  | 13 => ⟨S1x64x16x1, .f32⟩
  | 14 => ⟨S16x64x16x3136, .f32⟩
  | 15 => ⟨S16x64x16x3136, .f32⟩
  | 16 => ⟨S16x64x16x3136, .f32⟩
  | 17 => ⟨S16x64x16x3136, .f32⟩
  | 18 => ⟨S_, .f32⟩
  | 19 => ⟨S16x64x3136, .f32⟩
  | 20 => ⟨S16x64x3136, .f32⟩
  | 21 => ⟨S16x16x3136, .f32⟩
  | 22 => ⟨S64x16, .f32⟩
  | 23 => ⟨S16x1x16x3136, .f32⟩
  | 24 => ⟨S1x64x16x1, .f32⟩
  | 25 => ⟨S16x64x16x3136, .f32⟩
  | 26 => ⟨S16x64x16x3136, .f32⟩
  | 27 => ⟨S16x64x16x3136, .f32⟩
  | 28 => ⟨S16x64x16x3136, .f32⟩
  | 29 => ⟨S_, .f32⟩
  | 30 => ⟨S16x64x3136, .f32⟩
  | 31 => ⟨S16x64x3136, .f32⟩
  | 32 => ⟨S16x16x3136, .f32⟩
  | 33 => ⟨S64x16, .f32⟩
  | 34 => ⟨S16x1x16x3136, .f32⟩
  | 35 => ⟨S1x64x16x1, .f32⟩
  | 36 => ⟨S16x64x16x3136, .f32⟩
  | 37 => ⟨S16x64x16x3136, .f32⟩
  | 38 => ⟨S16x64x16x3136, .f32⟩
  | 39 => ⟨S16x64x16x3136, .f32⟩
  | 40 => ⟨S_, .f32⟩
  | 41 => ⟨S16x64x3136, .f32⟩
  | 42 => ⟨S16x64x3136, .f32⟩
  | 43 => ⟨S16x16x3136, .f32⟩
  | 44 => ⟨S64x16, .f32⟩
  | 45 => ⟨S16x1x16x3136, .f32⟩
  | 46 => ⟨S1x64x16x1, .f32⟩
  | 47 => ⟨S16x64x16x3136, .f32⟩
  | 48 => ⟨S16x64x16x3136, .f32⟩
  | 49 => ⟨S16x64x16x3136, .f32⟩
  | 50 => ⟨S16x64x16x3136, .f32⟩
  | 51 => ⟨S_, .f32⟩
  | 52 => ⟨S16x64x3136, .f32⟩
  | 53 => ⟨S16x64x3136, .f32⟩
  | 54 => ⟨S16x16x3136, .f32⟩
  | 55 => ⟨S64x16, .f32⟩
  | 56 => ⟨S16x1x16x3136, .f32⟩
  | 57 => ⟨S1x64x16x1, .f32⟩
  | 58 => ⟨S16x64x16x3136, .f32⟩
  | 59 => ⟨S16x64x16x3136, .f32⟩
  | 60 => ⟨S16x64x16x3136, .f32⟩
  | 61 => ⟨S16x64x16x3136, .f32⟩
  | 62 => ⟨S_, .f32⟩
  | 63 => ⟨S16x64x3136, .f32⟩
  | 64 => ⟨S16x64x3136, .f32⟩
  | 65 => ⟨S16x16x3136, .f32⟩
  | 66 => ⟨S64x16, .f32⟩
  | 67 => ⟨S16x1x16x3136, .f32⟩
  | 68 => ⟨S1x64x16x1, .f32⟩
  | 69 => ⟨S16x64x16x3136, .f32⟩
  | 70 => ⟨S16x64x16x3136, .f32⟩
  | 71 => ⟨S16x64x16x3136, .f32⟩
  | 72 => ⟨S16x64x16x3136, .f32⟩
  | 73 => ⟨S_, .f32⟩
  | 74 => ⟨S16x64x3136, .f32⟩
  | 75 => ⟨S16x64x3136, .f32⟩
  | 76 => ⟨S16x16x3136, .f32⟩
  | 77 => ⟨S64x16, .f32⟩
  | 78 => ⟨S16x1x16x3136, .f32⟩
  | 79 => ⟨S1x64x16x1, .f32⟩
  | 80 => ⟨S16x64x16x3136, .f32⟩
  | 81 => ⟨S16x64x16x3136, .f32⟩
  | 82 => ⟨S16x64x16x3136, .f32⟩
  | 83 => ⟨S16x64x16x3136, .f32⟩
  | 84 => ⟨S_, .f32⟩
  | 85 => ⟨S16x64x3136, .f32⟩
  | 86 => ⟨S16x64x3136, .f32⟩
  | 87 => ⟨S16x16x3136, .f32⟩
  | 88 => ⟨S64x16, .f32⟩
  | 89 => ⟨S16x1x16x3136, .f32⟩
  | 90 => ⟨S1x64x16x1, .f32⟩
  | 91 => ⟨S16x64x16x3136, .f32⟩
  | 92 => ⟨S16x64x16x3136, .f32⟩
  | 93 => ⟨S16x64x16x3136, .f32⟩
  | 94 => ⟨S16x64x16x3136, .f32⟩
  | 95 => ⟨S_, .f32⟩
  | 96 => ⟨S16x64x3136, .f32⟩
  | 97 => ⟨S16x64x3136, .f32⟩
  | 98 => ⟨S16x64x56x56, .f32⟩
  | 99 => ⟨S16x64x56x56, .f32⟩
  | _ => ⟨S16x32x56x56, .f32⟩

abbrev hbmTy (i : Nat) : BufTy := match i / 128 with
  | 0 => hbmTy0_0 i
  | 1 => hbmTy0_1 i
  | _ => ⟨S16x32x56x56, .f32⟩

abbrev bufTy : (tb : Table) → Fin (tcTables nBuf tb) → BufTy
  | .hbm, ⟨i, _⟩ => hbmTy i
  | _, _ => ⟨S16x32x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_0 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst_1 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_cst_2 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_cst_3 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_cst_4 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_cst_5 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_cst_6 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_cst_7 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_cst_8 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_cst_9 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_cst_10 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_cst_11 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_cst_12 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_cst_13 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_cst_14 : Ref sig .tc := ⟨.hbm, 190, rfl⟩
abbrev main_v171 : Ref sig .tc := ⟨.hbm, 191, rfl⟩
abbrev main_v172 : Ref sig .tc := ⟨.hbm, 192, rfl⟩
abbrev main_v173 : Ref sig .tc := ⟨.hbm, 193, rfl⟩
abbrev main_v174 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_cst_15 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_v189 : Ref sig .tc := ⟨.hbm, 210, rfl⟩
abbrev main_v190 : Ref sig .tc := ⟨.hbm, 211, rfl⟩
abbrev main_cst_16 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_v196 : Ref sig .tc := ⟨.hbm, 218, rfl⟩
abbrev main_v197 : Ref sig .tc := ⟨.hbm, 219, rfl⟩
abbrev main_v198 : Ref sig .tc := ⟨.hbm, 220, rfl⟩
abbrev main_v199 : Ref sig .tc := ⟨.hbm, 221, rfl⟩
abbrev main_v200 : Ref sig .tc := ⟨.hbm, 222, rfl⟩
abbrev main_cst_17 : Ref sig .tc := ⟨.hbm, 223, rfl⟩
abbrev main_v201 : Ref sig .tc := ⟨.hbm, 224, rfl⟩
abbrev main_v202 : Ref sig .tc := ⟨.hbm, 225, rfl⟩
abbrev main_v203 : Ref sig .tc := ⟨.hbm, 226, rfl⟩
abbrev main_v204 : Ref sig .tc := ⟨.hbm, 227, rfl⟩

abbrev nD : Nat := 1
abbrev τ : Topo := Topo.v7x

variable {F : FTy → Type} [FloatOps F]

class Facts₀ : Prop where
  pads_S16x32x56x56_S16x32x58x58_000_000_110_110 : S16x32x56x56.Pads (![0, 0, 1, 1] : Fin 4 → Nat) ![0, 0, 1, 1] ![0, 0, 0, 0] S16x32x58x58
  h_S_ : 0 < S_.numel
  slices_S16x32x58x58_S16x32x56x56_0_0_0_0 : S16x32x58x58.Slices ![0, 0, 0, 0] S16x32x56x56
  slices_S16x32x58x58_S16x32x56x56_0_0_0_1 : S16x32x58x58.Slices ![0, 0, 0, 1] S16x32x56x56
  slices_S16x32x58x58_S16x32x56x56_0_0_0_2 : S16x32x58x58.Slices ![0, 0, 0, 2] S16x32x56x56
  slices_S16x32x58x58_S16x32x56x56_0_0_1_0 : S16x32x58x58.Slices ![0, 0, 1, 0] S16x32x56x56
  slices_S16x32x58x58_S16x32x56x56_0_0_1_1 : S16x32x58x58.Slices ![0, 0, 1, 1] S16x32x56x56
  slices_S16x32x58x58_S16x32x56x56_0_0_1_2 : S16x32x58x58.Slices ![0, 0, 1, 2] S16x32x56x56
  slices_S16x32x58x58_S16x32x56x56_0_0_2_0 : S16x32x58x58.Slices ![0, 0, 2, 0] S16x32x56x56
  slices_S16x32x58x58_S16x32x56x56_0_0_2_1 : S16x32x58x58.Slices ![0, 0, 2, 1] S16x32x56x56
  slices_S16x32x58x58_S16x32x56x56_0_0_2_2 : S16x32x58x58.Slices ![0, 0, 2, 2] S16x32x56x56
  bcast_S16x32x56x56_S16x32x1x56x56_0_1_3_4 : S16x32x56x56.BroadcastsInDim S16x32x1x56x56 (![0, 1, 3, 4] : Fin 4 → Fin S16x32x1x56x56.rank)
  concatenates_S16x32x1x56x56_S16x32x1x56x56_S16x32x1x56x56_S16x32x1x56x56_S16x32x1x56x56_S16x32x1x56x56_S16x32x1x56x56_S16x32x1x56x56_S16x32x1x56x56_S16x32x9x56x56_d2 : Shape.Concatenates [S16x32x1x56x56, S16x32x1x56x56, S16x32x1x56x56, S16x32x1x56x56, S16x32x1x56x56, S16x32x1x56x56, S16x32x1x56x56, S16x32x1x56x56, S16x32x1x56x56] S16x32x9x56x56 2
  shapeCasts_S16x32x9x56x56_S16x288x3136 : S16x32x9x56x56.ShapeCasts S16x288x3136
  shapeCasts_S64x32x3x3_S64x288 : S64x32x3x3.ShapeCasts S64x288
  bcast_S_S16x64x3136 : S_.BroadcastsInDim S16x64x3136 (![] : Fin 0 → Fin S16x64x3136.rank)
  slices_S16x288x3136_S16x16x3136_0_0_0 : S16x288x3136.Slices ![0, 0, 0] S16x16x3136
  slices_S64x288_S64x16_0_0 : S64x288.Slices ![0, 0] S64x16
  bcast_S16x16x3136_S16x1x16x3136_0_2_3 : S16x16x3136.BroadcastsInDim S16x1x16x3136 (![0, 2, 3] : Fin 3 → Fin S16x1x16x3136.rank)
  bcast_S64x16_S1x64x16x1_1_2 : S64x16.BroadcastsInDim S1x64x16x1 (![1, 2] : Fin 2 → Fin S1x64x16x1.rank)
  bcast_S16x1x16x3136_S16x64x16x3136_0_1_2_3 : S16x1x16x3136.BroadcastsInDim S16x64x16x3136 (![0, 1, 2, 3] : Fin 4 → Fin S16x64x16x3136.rank)
  bcast_S1x64x16x1_S16x64x16x3136_0_1_2_3 : S1x64x16x1.BroadcastsInDim S16x64x16x3136 (![0, 1, 2, 3] : Fin 4 → Fin S16x64x16x3136.rank)
  reducesTo_S16x64x16x3136_S16x64x3136_d2 : S16x64x16x3136.ReducesTo [2] S16x64x3136
  slices_S16x288x3136_S16x16x3136_0_16_0 : S16x288x3136.Slices ![0, 16, 0] S16x16x3136
  slices_S64x288_S64x16_0_16 : S64x288.Slices ![0, 16] S64x16
  slices_S16x288x3136_S16x16x3136_0_32_0 : S16x288x3136.Slices ![0, 32, 0] S16x16x3136
  slices_S64x288_S64x16_0_32 : S64x288.Slices ![0, 32] S64x16
  slices_S16x288x3136_S16x16x3136_0_48_0 : S16x288x3136.Slices ![0, 48, 0] S16x16x3136
  slices_S64x288_S64x16_0_48 : S64x288.Slices ![0, 48] S64x16
  slices_S16x288x3136_S16x16x3136_0_64_0 : S16x288x3136.Slices ![0, 64, 0] S16x16x3136
  slices_S64x288_S64x16_0_64 : S64x288.Slices ![0, 64] S64x16
  slices_S16x288x3136_S16x16x3136_0_80_0 : S16x288x3136.Slices ![0, 80, 0] S16x16x3136
  slices_S64x288_S64x16_0_80 : S64x288.Slices ![0, 80] S64x16
  slices_S16x288x3136_S16x16x3136_0_96_0 : S16x288x3136.Slices ![0, 96, 0] S16x16x3136
  slices_S64x288_S64x16_0_96 : S64x288.Slices ![0, 96] S64x16
  slices_S16x288x3136_S16x16x3136_0_112_0 : S16x288x3136.Slices ![0, 112, 0] S16x16x3136
  slices_S64x288_S64x16_0_112 : S64x288.Slices ![0, 112] S64x16
  slices_S16x288x3136_S16x16x3136_0_128_0 : S16x288x3136.Slices ![0, 128, 0] S16x16x3136
  slices_S64x288_S64x16_0_128 : S64x288.Slices ![0, 128] S64x16
  slices_S16x288x3136_S16x16x3136_0_144_0 : S16x288x3136.Slices ![0, 144, 0] S16x16x3136
  slices_S64x288_S64x16_0_144 : S64x288.Slices ![0, 144] S64x16
  slices_S16x288x3136_S16x16x3136_0_160_0 : S16x288x3136.Slices ![0, 160, 0] S16x16x3136
  slices_S64x288_S64x16_0_160 : S64x288.Slices ![0, 160] S64x16
  slices_S16x288x3136_S16x16x3136_0_176_0 : S16x288x3136.Slices ![0, 176, 0] S16x16x3136
  slices_S64x288_S64x16_0_176 : S64x288.Slices ![0, 176] S64x16
  slices_S16x288x3136_S16x16x3136_0_192_0 : S16x288x3136.Slices ![0, 192, 0] S16x16x3136
  slices_S64x288_S64x16_0_192 : S64x288.Slices ![0, 192] S64x16
  slices_S16x288x3136_S16x16x3136_0_208_0 : S16x288x3136.Slices ![0, 208, 0] S16x16x3136
  slices_S64x288_S64x16_0_208 : S64x288.Slices ![0, 208] S64x16
  slices_S16x288x3136_S16x16x3136_0_224_0 : S16x288x3136.Slices ![0, 224, 0] S16x16x3136
  slices_S64x288_S64x16_0_224 : S64x288.Slices ![0, 224] S64x16
  slices_S16x288x3136_S16x16x3136_0_240_0 : S16x288x3136.Slices ![0, 240, 0] S16x16x3136
  slices_S64x288_S64x16_0_240 : S64x288.Slices ![0, 240] S64x16
  slices_S16x288x3136_S16x16x3136_0_256_0 : S16x288x3136.Slices ![0, 256, 0] S16x16x3136
  slices_S64x288_S64x16_0_256 : S64x288.Slices ![0, 256] S64x16
  slices_S16x288x3136_S16x16x3136_0_272_0 : S16x288x3136.Slices ![0, 272, 0] S16x16x3136
  slices_S64x288_S64x16_0_272 : S64x288.Slices ![0, 272] S64x16
  shapeCasts_S16x64x3136_S16x64x56x56 : S16x64x3136.ShapeCasts S16x64x56x56

variable [Facts₀]

class Facts : Prop extends Facts₀ where

variable [Facts]
-- ==== Proof.TapSums.lean ====
/-
  The L1 distance between a column of patches and a row of weights, taken sixteen taps at a time.

  For a patch column `a` and a weight row `b`, both indexed by the 288 = 32·3·3 flattened (channel, kh, kw)
  positions, `taps a b o` is Σ_{k<16} |a(o+k) − b(o+k)| and `dist a b` adds the eighteen such sums for
  o = 0, 16, …, 272, left to right — the order in which both programs accumulate them. The output of the
  "adder" correlation at (n, f, l) is −dist (X[n, ·, l]) (Wc[f, ·]).

  Everything is on the extended reals. Nothing here needs the entries to be finite: the two programs add the
  same terms in the same order, so no sum is regrouped; the only laws used downstream are 0 + x = x and
  0 − x = −x.
-/
import Idealize.ShloMosaic.PureOps.Ideal
import Idealize.ShloMosaic.PureOps.Ideal.Laws
import Idealize.ShloMosaic.Lib.ValueIdx

noncomputable section

namespace Cert.L1

open Idealize.ShloMosaic Idealize.ShloMosaic.ValueIdx

/-- Sixteen taps from position `o`: Σ_{k<16} |a(o+k) − b(o+k)|. -/
def taps (a b : Fin 288 → EReal) (o : Nat) (ho : o + 16 ≤ 288) : EReal :=
  ∑ k : Fin 16, FloatOps.absf (F := Ideal) (φ := .f32)
    (a ⟨o + k.val, by have := k.isLt; omega⟩ - b ⟨o + k.val, by have := k.isLt; omega⟩)

/-- The eighteen chunks of sixteen taps, added left to right. -/
def dist (a b : Fin 288 → EReal) : EReal :=
  taps a b 0 (by decide) + taps a b 16 (by decide) + taps a b 32 (by decide) + taps a b 48 (by decide) + taps a b 64 (by decide) + taps a b 80 (by decide) + taps a b 96 (by decide) + taps a b 112 (by decide) + taps a b 128 (by decide) + taps a b 144 (by decide) + taps a b 160 (by decide) + taps a b 176 (by decide) + taps a b 192 (by decide) + taps a b 208 (by decide) + taps a b 224 (by decide) + taps a b 240 (by decide) + taps a b 256 (by decide) + taps a b 272 (by decide)

/-- The patch array's column at batch entry `n` and flattened output position `l`. -/
def col (X : FVec Ideal ⟨3, ![16, 288, 3136]⟩ .f32) (n : Fin 16) (l : Fin 3136) : Fin 288 → EReal :=
  fun k => X (ix3 n k l)

/-- The flattened weights' row of output channel `f`. -/
def row (Wc : FVec Ideal ⟨2, ![64, 288]⟩ .f32) (f : Fin 64) : Fin 288 → EReal :=
  fun k => Wc (ix2 f k)

/-- The accumulated distances as one array over (n, f, l). -/
def distArr (X : FVec Ideal ⟨3, ![16, 288, 3136]⟩ .f32) (Wc : FVec Ideal ⟨2, ![64, 288]⟩ .f32) :
    FVec Ideal ⟨3, ![16, 64, 3136]⟩ .f32 :=
  fun j => dist (col X (j 0) (j 2)) (row Wc (j 1))

theorem distArr_apply (X : FVec Ideal ⟨3, ![16, 288, 3136]⟩ .f32) (Wc : FVec Ideal ⟨2, ![64, 288]⟩ .f32)
    (n : Fin 16) (f : Fin 64) (l : Fin 3136) : distArr X Wc (ix3 n f l) = dist (col X n l) (row Wc f) := rfl

/-- Taps depend on the two columns only through their values. -/
theorem taps_congr {a a' b b' : Fin 288 → EReal} (ha : a = a') (hb : b = b') (o : Nat) (ho : o + 16 ≤ 288) :
    taps a b o ho = taps a' b' o ho := by subst ha; subst hb; rfl

end Cert.L1

end
-- ==== Proof.ReferenceChunk.lean ====
/-
  One chunk of the reference, read at an element.

  The reference also handles the 288 patch positions sixteen at a time, over the whole arrays at once. For the
  chunk starting at position `o` it cuts positions o..o+15 out of the patch array X[n, ·, l] and out of the weights
  Wc[f, ·], spreads both over the common index (n, f, k, l) ∈ 16 × 64 × 16 × 3136, subtracts, takes absolute values
  and sums over k starting from zero. At (n, f, l) that is 0 + Σ_{k<16} |X(n, o+k, l) − Wc(f, o+k)|: zero plus
  `L1.taps` of the patch column (n, l) and the weight row f.
-/
import proofs.«110658_j30760555774424_2_alg».proof.Proof.Gen.ReferenceIdeal
import proofs.«110658_j30760555774424_2_alg».proof.Proof.TapSums
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Chunk

open Cert.ReferenceIdeal.Gen
open Idealize.ShloMosaic Idealize.ShloMosaic.ValueIdx

variable {F : FTy → Type} [FloatOps F]

/-- The chunk from position `o`, as the reference computes it from the patch array and the flattened weights. -/
def tapsR (o : Nat) (hx : S16x288x3136.Slices ![0, o, 0] S16x16x3136) (hw : S64x288.Slices ![0, o] S64x16)
    (X : FVec F S16x288x3136 .f32) (Wc : FVec F S64x288 .f32) : FVec F S16x64x3136 .f32 :=
  Host.reduceAdd (Host.absf (subf
      (broadcastInDim S16x64x16x3136 ![0, 1, 2, 3] bcast_S16x1x16x3136_S16x64x16x3136_0_1_2_3
        (broadcastInDim S16x1x16x3136 ![0, 2, 3] bcast_S16x16x3136_S16x1x16x3136_0_2_3 (extractStridedSlice S16x16x3136 ![0, o, 0] X hx)))
      (broadcastInDim S16x64x16x3136 ![0, 1, 2, 3] bcast_S1x64x16x1_S16x64x16x3136_0_1_2_3
        (broadcastInDim S1x64x16x1 ![1, 2] bcast_S64x16_S1x64x16x1_1_2 (extractStridedSlice S64x16 ![0, o] Wc hw)))))
    (constant S_ .f32 0x00000000#32) reducesTo_S16x64x16x3136_S16x64x3136_d2 h_S_

/-- The patches' piece spread over (n, f, k, l) is X at (n, o + k, l), whatever f. -/
theorem patches_apply (o : Nat) (hx : S16x288x3136.Slices ![0, o, 0] S16x16x3136) (X : FVec Ideal S16x288x3136 .f32)
    (n : Fin 16) (f : Fin 64) (k : Fin 16) (l : Fin 3136) :
    broadcastInDim S16x64x16x3136 ![0, 1, 2, 3] bcast_S16x1x16x3136_S16x64x16x3136_0_1_2_3
        (broadcastInDim S16x1x16x3136 ![0, 2, 3] bcast_S16x16x3136_S16x1x16x3136_0_2_3 (extractStridedSlice S16x16x3136 ![0, o, 0] X hx)) (ix4 n f k l)
      = X (ix3 n ⟨o + k.val, Nat.lt_of_lt_of_le (Nat.add_lt_add_left k.isLt o) (hx.2 1)⟩ l) := by
  refine (broadcastInDim_apply _ bcast_S16x1x16x3136_S16x64x16x3136_0_1_2_3 _ (ix4 n f k l) (ix4 n (0 : Fin 1) k l) (fun a => ?_)).trans ?_
  · match a with
    | ⟨0, _⟩ => rfl
    | ⟨1, _⟩ => rfl
    | ⟨2, _⟩ => rfl
    | ⟨3, _⟩ => rfl
  · refine (broadcastInDim_apply _ bcast_S16x16x3136_S16x1x16x3136_0_2_3 _ (ix4 n (0 : Fin 1) k l) (ix3 n k l) (fun a => ?_)).trans ?_
    · match a with
      | ⟨0, _⟩ => rfl
      | ⟨1, _⟩ => rfl
      | ⟨2, _⟩ => rfl
    · exact slice3_axis1_apply o X hx n k l _ rfl

/-- The weights' piece spread over (n, f, k, l) is Wc at (f, o + k), whatever n and l. -/
theorem weights_apply (o : Nat) (hw : S64x288.Slices ![0, o] S64x16) (Wc : FVec Ideal S64x288 .f32)
    (n : Fin 16) (f : Fin 64) (k : Fin 16) (l : Fin 3136) :
    broadcastInDim S16x64x16x3136 ![0, 1, 2, 3] bcast_S1x64x16x1_S16x64x16x3136_0_1_2_3
        (broadcastInDim S1x64x16x1 ![1, 2] bcast_S64x16_S1x64x16x1_1_2 (extractStridedSlice S64x16 ![0, o] Wc hw)) (ix4 n f k l)
      = Wc (ix2 f ⟨o + k.val, Nat.lt_of_lt_of_le (Nat.add_lt_add_left k.isLt o) (hw.2 1)⟩) := by
  refine (broadcastInDim_apply _ bcast_S1x64x16x1_S16x64x16x3136_0_1_2_3 _ (ix4 n f k l) (ix4 (0 : Fin 1) f k (0 : Fin 1)) (fun a => ?_)).trans ?_
  · match a with
    | ⟨0, _⟩ => rfl
    | ⟨1, _⟩ => rfl
    | ⟨2, _⟩ => rfl
    | ⟨3, _⟩ => rfl
  · refine (broadcastInDim_apply _ bcast_S64x16_S1x64x16x1_1_2 _ (ix4 (0 : Fin 1) f k (0 : Fin 1)) (ix2 f k) (fun a => ?_)).trans ?_
    · match a with
      | ⟨0, _⟩ => rfl
      | ⟨1, _⟩ => rfl
    · exact slice2_axis1_apply o Wc hw f k _ rfl

/-- The chunk at (n, f, l): zero plus the sixteen taps from `o` of the patch column (n, l) against the weight row f. -/
theorem tapsR_apply (o : Nat) (hx : S16x288x3136.Slices ![0, o, 0] S16x16x3136) (hw : S64x288.Slices ![0, o] S64x16)
    (X : FVec Ideal S16x288x3136 .f32) (Wc : FVec Ideal S64x288 .f32) (n : Fin 16) (f : Fin 64) (l : Fin 3136) :
    tapsR o hx hw X Wc (ix3 n f l)
      = Ideal.ofBits .f32 0x00000000#32 + L1.taps (L1.col X n l) (L1.row Wc f) o (hx.2 1) := by
  have hr : S16x64x16x3136.Reduces [2] S16x64x3136 := by decide
  unfold tapsR L1.taps L1.col L1.row
  simp only [Host.reduceAdd, Ideal.hostReduceAdd_def]
  refine (Ideal.hostReduceAdd_single reducesTo_S16x64x16x3136_S16x64x3136_d2 hr _ _ (ix3 n f l)).trans ?_
  refine congrArg₂ (· + ·) rfl (Finset.sum_congr rfl fun (k : Fin 16) _ => ?_)
  have hl : hr.lift (ix3 n f l) k = ix4 n f k l := by
    funext a; apply Fin.ext
    match a with
    | ⟨0, _⟩ => rfl
    | ⟨1, _⟩ => rfl
    | ⟨2, _⟩ => rfl
    | ⟨3, _⟩ => rfl
  refine (congrArg _ hl).trans ?_
  exact congrArg₂ (fun a b => FloatOps.absf (F := Ideal) (φ := .f32) (FloatOps.subf a b))
    (patches_apply o hx X n f k l) (weights_apply o hw Wc n f k l)

end Cert.ReferenceIdeal.Chunk

end
-- ==== Proof.ReferenceOps.lean ====
/-
  The reference as two stretches of host operations, and each stretch as a function.

  The reference is a straight line of 226 host operations. The first 24 lay the inputs out — x padded by a zero
  border, its nine shifted windows stacked and flattened into the patch array X = `patches x`, W flattened into
  Wc = `flatW W`; the other 202 start a zero accumulator, add the eighteen chunks of sixteen taps to it, reshape and
  negate: `resultOf X Wc`. This module states the two functions, lists the operations of the two stretches in program
  order, and checks that the program is the two lists run one after the other, that every operation touches only
  buffers of the device and that none allocates.
-/
import proofs.«110658_j30760555774424_2_alg».proof.Proof.Gen.ReferenceIdeal
import proofs.«110658_j30760555774424_2_alg».proof.Proof.ReferenceChunk
import Idealize.ShloMosaic.Lib.StableHlo.Run

set_option maxRecDepth 65536
set_option maxHeartbeats 4000000

noncomputable section

namespace Cert.ReferenceIdeal.TwoStretch

open Cert.ReferenceIdeal Cert.ReferenceIdeal.Gen Cert.ReferenceIdeal.Chunk
open Idealize.ShloMosaic Idealize.ShloMosaic.TcCoe Idealize.SL.Sem Idealize.ShloMosaic.StableHlo

variable {F : FTy → Type} [FloatOps F]

/-! ## The two stretches as functions -/

/-- x with a border of zeros one wide on its two spatial axes. -/
def padded (x : FVec F S16x32x56x56 .f32) : FVec F S16x32x58x58 .f32 :=
  pad S16x32x58x58 ![0, 0, 1, 1] ![0, 0, 1, 1] ![0, 0, 0, 0] x (sitofp .f32 (constantI S_ 32 0#32)) pads_S16x32x56x56_S16x32x58x58_000_000_110_110 h_S_

/-- The 56×56 window of the padded input shifted by (i, j), with a unit axis for the stacking. -/
def window (i j : Nat) (hs : S16x32x58x58.Slices ![0, 0, i, j] S16x32x56x56) (x : FVec F S16x32x56x56 .f32) : FVec F S16x32x1x56x56 .f32 :=
  broadcastInDim S16x32x1x56x56 ![0, 1, 3, 4] bcast_S16x32x56x56_S16x32x1x56x56_0_1_3_4 (extractStridedSlice S16x32x56x56 ![0, 0, i, j] (padded x) hs)

/-- The patch array: the nine windows stacked along a new axis, (channel, window) and the two spatial axes flattened. -/
def patches (x : FVec F S16x32x56x56 .f32) : FVec F S16x288x3136 .f32 :=
  shapeCast S16x288x3136 (concatenate S16x32x9x56x56 2 [⟨S16x32x1x56x56, window 0 0 slices_S16x32x58x58_S16x32x56x56_0_0_0_0 x⟩, ⟨S16x32x1x56x56, window 0 1 slices_S16x32x58x58_S16x32x56x56_0_0_0_1 x⟩, ⟨S16x32x1x56x56, window 0 2 slices_S16x32x58x58_S16x32x56x56_0_0_0_2 x⟩, ⟨S16x32x1x56x56, window 1 0 slices_S16x32x58x58_S16x32x56x56_0_0_1_0 x⟩, ⟨S16x32x1x56x56, window 1 1 slices_S16x32x58x58_S16x32x56x56_0_0_1_1 x⟩, ⟨S16x32x1x56x56, window 1 2 slices_S16x32x58x58_S16x32x56x56_0_0_1_2 x⟩, ⟨S16x32x1x56x56, window 2 0 slices_S16x32x58x58_S16x32x56x56_0_0_2_0 x⟩, ⟨S16x32x1x56x56, window 2 1 slices_S16x32x58x58_S16x32x56x56_0_0_2_1 x⟩, ⟨S16x32x1x56x56, window 2 2 slices_S16x32x58x58_S16x32x56x56_0_0_2_2 x⟩] concatenates_S16x32x1x56x56_S16x32x1x56x56_S16x32x1x56x56_S16x32x1x56x56_S16x32x1x56x56_S16x32x1x56x56_S16x32x1x56x56_S16x32x1x56x56_S16x32x1x56x56_S16x32x9x56x56_d2) shapeCasts_S16x32x9x56x56_S16x288x3136

/-- The weights with (channel, kh, kw) flattened. -/
def flatW (w : FVec F S64x32x3x3 .f32) : FVec F S64x288 .f32 := shapeCast S64x288 w shapeCasts_S64x32x3x3_S64x288

/-- The accumulator after the eighteen chunks, from a zero array. -/
def accTerm (X : FVec F S16x288x3136 .f32) (Wc : FVec F S64x288 .f32) : FVec F S16x64x3136 .f32 :=
  (addf (addf (addf (addf (addf (addf (addf (addf (addf (addf (addf (addf (addf (addf (addf (addf (addf (addf (broadcastInDim S16x64x3136 ![] bcast_S_S16x64x3136 (constant (F := F) S_ .f32 0x00000000#32)) (tapsR 0 slices_S16x288x3136_S16x16x3136_0_0_0 slices_S64x288_S64x16_0_0 X Wc)) (tapsR 16 slices_S16x288x3136_S16x16x3136_0_16_0 slices_S64x288_S64x16_0_16 X Wc)) (tapsR 32 slices_S16x288x3136_S16x16x3136_0_32_0 slices_S64x288_S64x16_0_32 X Wc)) (tapsR 48 slices_S16x288x3136_S16x16x3136_0_48_0 slices_S64x288_S64x16_0_48 X Wc)) (tapsR 64 slices_S16x288x3136_S16x16x3136_0_64_0 slices_S64x288_S64x16_0_64 X Wc)) (tapsR 80 slices_S16x288x3136_S16x16x3136_0_80_0 slices_S64x288_S64x16_0_80 X Wc)) (tapsR 96 slices_S16x288x3136_S16x16x3136_0_96_0 slices_S64x288_S64x16_0_96 X Wc)) (tapsR 112 slices_S16x288x3136_S16x16x3136_0_112_0 slices_S64x288_S64x16_0_112 X Wc)) (tapsR 128 slices_S16x288x3136_S16x16x3136_0_128_0 slices_S64x288_S64x16_0_128 X Wc)) (tapsR 144 slices_S16x288x3136_S16x16x3136_0_144_0 slices_S64x288_S64x16_0_144 X Wc)) (tapsR 160 slices_S16x288x3136_S16x16x3136_0_160_0 slices_S64x288_S64x16_0_160 X Wc)) (tapsR 176 slices_S16x288x3136_S16x16x3136_0_176_0 slices_S64x288_S64x16_0_176 X Wc)) (tapsR 192 slices_S16x288x3136_S16x16x3136_0_192_0 slices_S64x288_S64x16_0_192 X Wc)) (tapsR 208 slices_S16x288x3136_S16x16x3136_0_208_0 slices_S64x288_S64x16_0_208 X Wc)) (tapsR 224 slices_S16x288x3136_S16x16x3136_0_224_0 slices_S64x288_S64x16_0_224 X Wc)) (tapsR 240 slices_S16x288x3136_S16x16x3136_0_240_0 slices_S64x288_S64x16_0_240 X Wc)) (tapsR 256 slices_S16x288x3136_S16x16x3136_0_256_0 slices_S64x288_S64x16_0_256 X Wc)) (tapsR 272 slices_S16x288x3136_S16x16x3136_0_272_0 slices_S64x288_S64x16_0_272 X Wc))

/-- The result: the accumulator reshaped to [16, 64, 56, 56] and negated. -/
def resultOf (X : FVec F S16x288x3136 .f32) (Wc : FVec F S64x288 .f32) : FVec F S16x64x56x56 .f32 :=
  Host.negf (shapeCast S16x64x56x56 (accTerm X Wc) shapeCasts_S16x64x3136_S16x64x56x56)

/-! ## The program as two lists of operations -/

/-- The 24 operations that lay the inputs out. -/
abbrev layoutOps : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S16x32x56x56, .f32⟩) main_arg0) (TRef.of (T := ⟨S_, .f32⟩) main_call0_v0) (TRef.of (T := ⟨S16x32x58x58, .f32⟩) main_v0) (fun x v => pad S16x32x58x58 ![0, 0, 1, 1] ![0, 0, 1, 1] ![0, 0, 0, 0] x v pads_S16x32x56x56_S16x32x58x58_000_000_110_110 h_S_),
    unary main_v0 main_v1 ((extractStridedSlice S16x32x56x56 ![0, 0, 0, 0] · slices_S16x32x58x58_S16x32x56x56_0_0_0_0) : (⟨S16x32x58x58, .f32⟩ : BufTy).Contents (Elt F) → (⟨S16x32x56x56, .f32⟩ : BufTy).Contents (Elt F)),
    unary main_v0 main_v2 ((extractStridedSlice S16x32x56x56 ![0, 0, 0, 1] · slices_S16x32x58x58_S16x32x56x56_0_0_0_1) : (⟨S16x32x58x58, .f32⟩ : BufTy).Contents (Elt F) → (⟨S16x32x56x56, .f32⟩ : BufTy).Contents (Elt F)),
    unary main_v0 main_v3 ((extractStridedSlice S16x32x56x56 ![0, 0, 0, 2] · slices_S16x32x58x58_S16x32x56x56_0_0_0_2) : (⟨S16x32x58x58, .f32⟩ : BufTy).Contents (Elt F) → (⟨S16x32x56x56, .f32⟩ : BufTy).Contents (Elt F)),
    unary main_v0 main_v4 ((extractStridedSlice S16x32x56x56 ![0, 0, 1, 0] · slices_S16x32x58x58_S16x32x56x56_0_0_1_0) : (⟨S16x32x58x58, .f32⟩ : BufTy).Contents (Elt F) → (⟨S16x32x56x56, .f32⟩ : BufTy).Contents (Elt F)),
    unary main_v0 main_v5 ((extractStridedSlice S16x32x56x56 ![0, 0, 1, 1] · slices_S16x32x58x58_S16x32x56x56_0_0_1_1) : (⟨S16x32x58x58, .f32⟩ : BufTy).Contents (Elt F) → (⟨S16x32x56x56, .f32⟩ : BufTy).Contents (Elt F)),
    unary main_v0 main_v6 ((extractStridedSlice S16x32x56x56 ![0, 0, 1, 2] · slices_S16x32x58x58_S16x32x56x56_0_0_1_2) : (⟨S16x32x58x58, .f32⟩ : BufTy).Contents (Elt F) → (⟨S16x32x56x56, .f32⟩ : BufTy).Contents (Elt F)),
    unary main_v0 main_v7 ((extractStridedSlice S16x32x56x56 ![0, 0, 2, 0] · slices_S16x32x58x58_S16x32x56x56_0_0_2_0) : (⟨S16x32x58x58, .f32⟩ : BufTy).Contents (Elt F) → (⟨S16x32x56x56, .f32⟩ : BufTy).Contents (Elt F)),
    unary main_v0 main_v8 ((extractStridedSlice S16x32x56x56 ![0, 0, 2, 1] · slices_S16x32x58x58_S16x32x56x56_0_0_2_1) : (⟨S16x32x58x58, .f32⟩ : BufTy).Contents (Elt F) → (⟨S16x32x56x56, .f32⟩ : BufTy).Contents (Elt F)),
    unary main_v0 main_v9 ((extractStridedSlice S16x32x56x56 ![0, 0, 2, 2] · slices_S16x32x58x58_S16x32x56x56_0_0_2_2) : (⟨S16x32x58x58, .f32⟩ : BufTy).Contents (Elt F) → (⟨S16x32x56x56, .f32⟩ : BufTy).Contents (Elt F)),
    unary main_v1 main_v10 (broadcastInDim S16x32x1x56x56 ![0, 1, 3, 4] bcast_S16x32x56x56_S16x32x1x56x56_0_1_3_4 : (⟨S16x32x56x56, .f32⟩ : BufTy).Contents (Elt F) → (⟨S16x32x1x56x56, .f32⟩ : BufTy).Contents (Elt F)),
    unary main_v2 main_v11 (broadcastInDim S16x32x1x56x56 ![0, 1, 3, 4] bcast_S16x32x56x56_S16x32x1x56x56_0_1_3_4 : (⟨S16x32x56x56, .f32⟩ : BufTy).Contents (Elt F) → (⟨S16x32x1x56x56, .f32⟩ : BufTy).Contents (Elt F)),
    unary main_v3 main_v12 (broadcastInDim S16x32x1x56x56 ![0, 1, 3, 4] bcast_S16x32x56x56_S16x32x1x56x56_0_1_3_4 : (⟨S16x32x56x56, .f32⟩ : BufTy).Contents (Elt F) → (⟨S16x32x1x56x56, .f32⟩ : BufTy).Contents (Elt F)),
    unary main_v4 main_v13 (broadcastInDim S16x32x1x56x56 ![0, 1, 3, 4] bcast_S16x32x56x56_S16x32x1x56x56_0_1_3_4 : (⟨S16x32x56x56, .f32⟩ : BufTy).Contents (Elt F) → (⟨S16x32x1x56x56, .f32⟩ : BufTy).Contents (Elt F)),
    unary main_v5 main_v14 (broadcastInDim S16x32x1x56x56 ![0, 1, 3, 4] bcast_S16x32x56x56_S16x32x1x56x56_0_1_3_4 : (⟨S16x32x56x56, .f32⟩ : BufTy).Contents (Elt F) → (⟨S16x32x1x56x56, .f32⟩ : BufTy).Contents (Elt F)),
    unary main_v6 main_v15 (broadcastInDim S16x32x1x56x56 ![0, 1, 3, 4] bcast_S16x32x56x56_S16x32x1x56x56_0_1_3_4 : (⟨S16x32x56x56, .f32⟩ : BufTy).Contents (Elt F) → (⟨S16x32x1x56x56, .f32⟩ : BufTy).Contents (Elt F)),
    unary main_v7 main_v16 (broadcastInDim S16x32x1x56x56 ![0, 1, 3, 4] bcast_S16x32x56x56_S16x32x1x56x56_0_1_3_4 : (⟨S16x32x56x56, .f32⟩ : BufTy).Contents (Elt F) → (⟨S16x32x1x56x56, .f32⟩ : BufTy).Contents (Elt F)),
    unary main_v8 main_v17 (broadcastInDim S16x32x1x56x56 ![0, 1, 3, 4] bcast_S16x32x56x56_S16x32x1x56x56_0_1_3_4 : (⟨S16x32x56x56, .f32⟩ : BufTy).Contents (Elt F) → (⟨S16x32x1x56x56, .f32⟩ : BufTy).Contents (Elt F)),
    unary main_v9 main_v18 (broadcastInDim S16x32x1x56x56 ![0, 1, 3, 4] bcast_S16x32x56x56_S16x32x1x56x56_0_1_3_4 : (⟨S16x32x56x56, .f32⟩ : BufTy).Contents (Elt F) → (⟨S16x32x1x56x56, .f32⟩ : BufTy).Contents (Elt F)),
    nary ![main_v10, main_v11, main_v12, main_v13, main_v14, main_v15, main_v16, main_v17, main_v18] main_v19 (fun u => concatenate S16x32x9x56x56 2 [⟨S16x32x1x56x56, u 0⟩, ⟨S16x32x1x56x56, u 1⟩, ⟨S16x32x1x56x56, u 2⟩, ⟨S16x32x1x56x56, u 3⟩, ⟨S16x32x1x56x56, u 4⟩, ⟨S16x32x1x56x56, u 5⟩, ⟨S16x32x1x56x56, u 6⟩, ⟨S16x32x1x56x56, u 7⟩, ⟨S16x32x1x56x56, u 8⟩] concatenates_S16x32x1x56x56_S16x32x1x56x56_S16x32x1x56x56_S16x32x1x56x56_S16x32x1x56x56_S16x32x1x56x56_S16x32x1x56x56_S16x32x1x56x56_S16x32x1x56x56_S16x32x9x56x56_d2),
    reshape main_v19 main_v20 rfl shapeCasts_S16x32x9x56x56_S16x288x3136,
    reshape main_arg1 main_v21 rfl shapeCasts_S64x32x3x3_S64x288 ]

/-- The 202 operations that accumulate, reshape and negate. -/
abbrev accumOps : List (HloOp τ sig (Elt F)) :=
  [ nullary main_cst (constant S_ .f32 0x00000000#32),
    unary main_cst main_v22 (broadcastInDim S16x64x3136 ![] bcast_S_S16x64x3136 : (⟨S_, .f32⟩ : BufTy).Contents (Elt F) → (⟨S16x64x3136, .f32⟩ : BufTy).Contents (Elt F)),
    unary main_v20 main_v23 ((extractStridedSlice S16x16x3136 ![0, 0, 0] · slices_S16x288x3136_S16x16x3136_0_0_0) : (⟨S16x288x3136, .f32⟩ : BufTy).Contents (Elt F) → (⟨S16x16x3136, .f32⟩ : BufTy).Contents (Elt F)),
    unary main_v21 main_v24 ((extractStridedSlice S64x16 ![0, 0] · slices_S64x288_S64x16_0_0) : (⟨S64x288, .f32⟩ : BufTy).Contents (Elt F) → (⟨S64x16, .f32⟩ : BufTy).Contents (Elt F)),
    unary main_v23 main_v25 (broadcastInDim S16x1x16x3136 ![0, 2, 3] bcast_S16x16x3136_S16x1x16x3136_0_2_3 : (⟨S16x16x3136, .f32⟩ : BufTy).Contents (Elt F) → (⟨S16x1x16x3136, .f32⟩ : BufTy).Contents (Elt F)),
    unary main_v24 main_v26 (broadcastInDim S1x64x16x1 ![1, 2] bcast_S64x16_S1x64x16x1_1_2 : (⟨S64x16, .f32⟩ : BufTy).Contents (Elt F) → (⟨S1x64x16x1, .f32⟩ : BufTy).Contents (Elt F)),
    unary main_v25 main_v27 (broadcastInDim S16x64x16x3136 ![0, 1, 2, 3] bcast_S16x1x16x3136_S16x64x16x3136_0_1_2_3 : (⟨S16x1x16x3136, .f32⟩ : BufTy).Contents (Elt F) → (⟨S16x64x16x3136, .f32⟩ : BufTy).Contents (Elt F)),
    unary main_v26 main_v28 (broadcastInDim S16x64x16x3136 ![0, 1, 2, 3] bcast_S1x64x16x1_S16x64x16x3136_0_1_2_3 : (⟨S1x64x16x1, .f32⟩ : BufTy).Contents (Elt F) → (⟨S16x64x16x3136, .f32⟩ : BufTy).Contents (Elt F)),
    binary main_v27 main_v28 main_v29 (subf : (⟨S16x64x16x3136, .f32⟩ : BufTy).Contents (Elt F) → (⟨S16x64x16x3136, .f32⟩ : BufTy).Contents (Elt F) → (⟨S16x64x16x3136, .f32⟩ : BufTy).Contents (Elt F)),
    unary main_v29 main_v30 (Host.absf : (⟨S16x64x16x3136, .f32⟩ : BufTy).Contents (Elt F) → (⟨S16x64x16x3136, .f32⟩ : BufTy).Contents (Elt F)),
    nullary main_cst_0 (constant S_ .f32 0x00000000#32),
    binary main_v30 main_cst_0 main_v31 ((fun x v => Host.reduceAdd x v reducesTo_S16x64x16x3136_S16x64x3136_d2 h_S_) : (⟨S16x64x16x3136, .f32⟩ : BufTy).Contents (Elt F) → (⟨S_, .f32⟩ : BufTy).Contents (Elt F) → (⟨S16x64x3136, .f32⟩ : BufTy).Contents (Elt F)),
    binary main_v22 main_v31 main_v32 (addf : (⟨S16x64x3136, .f32⟩ : BufTy).Contents (Elt F) → (⟨S16x64x3136, .f32⟩ : BufTy).Contents (Elt F) → (⟨S16x64x3136, .f32⟩ : BufTy).Contents (Elt F)),
    unary main_v20 main_v33 ((extractStridedSlice S16x16x3136 ![0, 16, 0] · slices_S16x288x3136_S16x16x3136_0_16_0) : (⟨S16x288x3136, .f32⟩ : BufTy).Contents (Elt F) → (⟨S16x16x3136, .f32⟩ : BufTy).Contents (Elt F)),
    unary main_v21 main_v34 ((extractStridedSlice S64x16 ![0, 16] · slices_S64x288_S64x16_0_16) : (⟨S64x288, .f32⟩ : BufTy).Contents (Elt F) → (⟨S64x16, .f32⟩ : BufTy).Contents (Elt F)),
    unary main_v33 main_v35 (broadcastInDim S16x1x16x3136 ![0, 2, 3] bcast_S16x16x3136_S16x1x16x3136_0_2_3 : (⟨S16x16x3136, .f32⟩ : BufTy).Contents (Elt F) → (⟨S16x1x16x3136, .f32⟩ : BufTy).Contents (Elt F)),
    unary main_v34 main_v36 (broadcastInDim S1x64x16x1 ![1, 2] bcast_S64x16_S1x64x16x1_1_2 : (⟨S64x16, .f32⟩ : BufTy).Contents (Elt F) → (⟨S1x64x16x1, .f32⟩ : BufTy).Contents (Elt F)),
    unary main_v35 main_v37 (broadcastInDim S16x64x16x3136 ![0, 1, 2, 3] bcast_S16x1x16x3136_S16x64x16x3136_0_1_2_3 : (⟨S16x1x16x3136, .f32⟩ : BufTy).Contents (Elt F) → (⟨S16x64x16x3136, .f32⟩ : BufTy).Contents (Elt F)),
    unary main_v36 main_v38 (broadcastInDim S16x64x16x3136 ![0, 1, 2, 3] bcast_S1x64x16x1_S16x64x16x3136_0_1_2_3 : (⟨S1x64x16x1, .f32⟩ : BufTy).Contents (Elt F) → (⟨S16x64x16x3136, .f32⟩ : BufTy).Contents (Elt F)),
    binary main_v37 main_v38 main_v39 (subf : (⟨S16x64x16x3136, .f32⟩ : BufTy).Contents (Elt F) → (⟨S16x64x16x3136, .f32⟩ : BufTy).Contents (Elt F) → (⟨S16x64x16x3136, .f32⟩ : BufTy).Contents (Elt F)),
    unary main_v39 main_v40 (Host.absf : (⟨S16x64x16x3136, .f32⟩ : BufTy).Contents (Elt F) → (⟨S16x64x16x3136, .f32⟩ : BufTy).Contents (Elt F)),
    nullary main_cst_1 (constant S_ .f32 0x00000000#32),
    binary main_v40 main_cst_1 main_v41 ((fun x v => Host.reduceAdd x v reducesTo_S16x64x16x3136_S16x64x3136_d2 h_S_) : (⟨S16x64x16x3136, .f32⟩ : BufTy).Contents (Elt F) → (⟨S_, .f32⟩ : BufTy).Contents (Elt F) → (⟨S16x64x3136, .f32⟩ : BufTy).Contents (Elt F)),
    binary main_v32 main_v41 main_v42 (addf : (⟨S16x64x3136, .f32⟩ : BufTy).Contents (Elt F) → (⟨S16x64x3136, .f32⟩ : BufTy).Contents (Elt F) → (⟨S16x64x3136, .f32⟩ : BufTy).Contents (Elt F)),
    unary main_v20 main_v43 ((extractStridedSlice S16x16x3136 ![0, 32, 0] · slices_S16x288x3136_S16x16x3136_0_32_0) : (⟨S16x288x3136, .f32⟩ : BufTy).Contents (Elt F) → (⟨S16x16x3136, .f32⟩ : BufTy).Contents (Elt F)),
    unary main_v21 main_v44 ((extractStridedSlice S64x16 ![0, 32] · slices_S64x288_S64x16_0_32) : (⟨S64x288, .f32⟩ : BufTy).Contents (Elt F) → (⟨S64x16, .f32⟩ : BufTy).Contents (Elt F)),
    unary main_v43 main_v45 (broadcastInDim S16x1x16x3136 ![0, 2, 3] bcast_S16x16x3136_S16x1x16x3136_0_2_3 : (⟨S16x16x3136, .f32⟩ : BufTy).Contents (Elt F) → (⟨S16x1x16x3136, .f32⟩ : BufTy).Contents (Elt F)),
    unary main_v44 main_v46 (broadcastInDim S1x64x16x1 ![1, 2] bcast_S64x16_S1x64x16x1_1_2 : (⟨S64x16, .f32⟩ : BufTy).Contents (Elt F) → (⟨S1x64x16x1, .f32⟩ : BufTy).Contents (Elt F)),
    unary main_v45 main_v47 (broadcastInDim S16x64x16x3136 ![0, 1, 2, 3] bcast_S16x1x16x3136_S16x64x16x3136_0_1_2_3 : (⟨S16x1x16x3136, .f32⟩ : BufTy).Contents (Elt F) → (⟨S16x64x16x3136, .f32⟩ : BufTy).Contents (Elt F)),
    unary main_v46 main_v48 (broadcastInDim S16x64x16x3136 ![0, 1, 2, 3] bcast_S1x64x16x1_S16x64x16x3136_0_1_2_3 : (⟨S1x64x16x1, .f32⟩ : BufTy).Contents (Elt F) → (⟨S16x64x16x3136, .f32⟩ : BufTy).Contents (Elt F)),
    binary main_v47 main_v48 main_v49 (subf : (⟨S16x64x16x3136, .f32⟩ : BufTy).Contents (Elt F) → (⟨S16x64x16x3136, .f32⟩ : BufTy).Contents (Elt F) → (⟨S16x64x16x3136, .f32⟩ : BufTy).Contents (Elt F)),
    unary main_v49 main_v50 (Host.absf : (⟨S16x64x16x3136, .f32⟩ : BufTy).Contents (Elt F) → (⟨S16x64x16x3136, .f32⟩ : BufTy).Contents (Elt F)),
    nullary main_cst_2 (constant S_ .f32 0x00000000#32),
    binary main_v50 main_cst_2 main_v51 ((fun x v => Host.reduceAdd x v reducesTo_S16x64x16x3136_S16x64x3136_d2 h_S_) : (⟨S16x64x16x3136, .f32⟩ : BufTy).Contents (Elt F) → (⟨S_, .f32⟩ : BufTy).Contents (Elt F) → (⟨S16x64x3136, .f32⟩ : BufTy).Contents (Elt F)),
    binary main_v42 main_v51 main_v52 (addf : (⟨S16x64x3136, .f32⟩ : BufTy).Contents (Elt F) → (⟨S16x64x3136, .f32⟩ : BufTy).Contents (Elt F) → (⟨S16x64x3136, .f32⟩ : BufTy).Contents (Elt F)),
    unary main_v20 main_v53 ((extractStridedSlice S16x16x3136 ![0, 48, 0] · slices_S16x288x3136_S16x16x3136_0_48_0) : (⟨S16x288x3136, .f32⟩ : BufTy).Contents (Elt F) → (⟨S16x16x3136, .f32⟩ : BufTy).Contents (Elt F)),
    unary main_v21 main_v54 ((extractStridedSlice S64x16 ![0, 48] · slices_S64x288_S64x16_0_48) : (⟨S64x288, .f32⟩ : BufTy).Contents (Elt F) → (⟨S64x16, .f32⟩ : BufTy).Contents (Elt F)),
    unary main_v53 main_v55 (broadcastInDim S16x1x16x3136 ![0, 2, 3] bcast_S16x16x3136_S16x1x16x3136_0_2_3 : (⟨S16x16x3136, .f32⟩ : BufTy).Contents (Elt F) → (⟨S16x1x16x3136, .f32⟩ : BufTy).Contents (Elt F)),
    unary main_v54 main_v56 (broadcastInDim S1x64x16x1 ![1, 2] bcast_S64x16_S1x64x16x1_1_2 : (⟨S64x16, .f32⟩ : BufTy).Contents (Elt F) → (⟨S1x64x16x1, .f32⟩ : BufTy).Contents (Elt F)),
    unary main_v55 main_v57 (broadcastInDim S16x64x16x3136 ![0, 1, 2, 3] bcast_S16x1x16x3136_S16x64x16x3136_0_1_2_3 : (⟨S16x1x16x3136, .f32⟩ : BufTy).Contents (Elt F) → (⟨S16x64x16x3136, .f32⟩ : BufTy).Contents (Elt F)),
    unary main_v56 main_v58 (broadcastInDim S16x64x16x3136 ![0, 1, 2, 3] bcast_S1x64x16x1_S16x64x16x3136_0_1_2_3 : (⟨S1x64x16x1, .f32⟩ : BufTy).Contents (Elt F) → (⟨S16x64x16x3136, .f32⟩ : BufTy).Contents (Elt F)),
    binary main_v57 main_v58 main_v59 (subf : (⟨S16x64x16x3136, .f32⟩ : BufTy).Contents (Elt F) → (⟨S16x64x16x3136, .f32⟩ : BufTy).Contents (Elt F) → (⟨S16x64x16x3136, .f32⟩ : BufTy).Contents (Elt F)),
    unary main_v59 main_v60 (Host.absf : (⟨S16x64x16x3136, .f32⟩ : BufTy).Contents (Elt F) → (⟨S16x64x16x3136, .f32⟩ : BufTy).Contents (Elt F)),
    nullary main_cst_3 (constant S_ .f32 0x00000000#32),
    binary main_v60 main_cst_3 main_v61 ((fun x v => Host.reduceAdd x v reducesTo_S16x64x16x3136_S16x64x3136_d2 h_S_) : (⟨S16x64x16x3136, .f32⟩ : BufTy).Contents (Elt F) → (⟨S_, .f32⟩ : BufTy).Contents (Elt F) → (⟨S16x64x3136, .f32⟩ : BufTy).Contents (Elt F)),
    binary main_v52 main_v61 main_v62 (addf : (⟨S16x64x3136, .f32⟩ : BufTy).Contents (Elt F) → (⟨S16x64x3136, .f32⟩ : BufTy).Contents (Elt F) → (⟨S16x64x3136, .f32⟩ : BufTy).Contents (Elt F)),
    unary main_v20 main_v63 ((extractStridedSlice S16x16x3136 ![0, 64, 0] · slices_S16x288x3136_S16x16x3136_0_64_0) : (⟨S16x288x3136, .f32⟩ : BufTy).Contents (Elt F) → (⟨S16x16x3136, .f32⟩ : BufTy).Contents (Elt F)),
    unary main_v21 main_v64 ((extractStridedSlice S64x16 ![0, 64] · slices_S64x288_S64x16_0_64) : (⟨S64x288, .f32⟩ : BufTy).Contents (Elt F) → (⟨S64x16, .f32⟩ : BufTy).Contents (Elt F)),
    unary main_v63 main_v65 (broadcastInDim S16x1x16x3136 ![0, 2, 3] bcast_S16x16x3136_S16x1x16x3136_0_2_3 : (⟨S16x16x3136, .f32⟩ : BufTy).Contents (Elt F) → (⟨S16x1x16x3136, .f32⟩ : BufTy).Contents (Elt F)),
    unary main_v64 main_v66 (broadcastInDim S1x64x16x1 ![1, 2] bcast_S64x16_S1x64x16x1_1_2 : (⟨S64x16, .f32⟩ : BufTy).Contents (Elt F) → (⟨S1x64x16x1, .f32⟩ : BufTy).Contents (Elt F)),
    unary main_v65 main_v67 (broadcastInDim S16x64x16x3136 ![0, 1, 2, 3] bcast_S16x1x16x3136_S16x64x16x3136_0_1_2_3 : (⟨S16x1x16x3136, .f32⟩ : BufTy).Contents (Elt F) → (⟨S16x64x16x3136, .f32⟩ : BufTy).Contents (Elt F)),
    unary main_v66 main_v68 (broadcastInDim S16x64x16x3136 ![0, 1, 2, 3] bcast_S1x64x16x1_S16x64x16x3136_0_1_2_3 : (⟨S1x64x16x1, .f32⟩ : BufTy).Contents (Elt F) → (⟨S16x64x16x3136, .f32⟩ : BufTy).Contents (Elt F)),
    binary main_v67 main_v68 main_v69 (subf : (⟨S16x64x16x3136, .f32⟩ : BufTy).Contents (Elt F) → (⟨S16x64x16x3136, .f32⟩ : BufTy).Contents (Elt F) → (⟨S16x64x16x3136, .f32⟩ : BufTy).Contents (Elt F)),
    unary main_v69 main_v70 (Host.absf : (⟨S16x64x16x3136, .f32⟩ : BufTy).Contents (Elt F) → (⟨S16x64x16x3136, .f32⟩ : BufTy).Contents (Elt F)),
    nullary main_cst_4 (constant S_ .f32 0x00000000#32),
    binary main_v70 main_cst_4 main_v71 ((fun x v => Host.reduceAdd x v reducesTo_S16x64x16x3136_S16x64x3136_d2 h_S_) : (⟨S16x64x16x3136, .f32⟩ : BufTy).Contents (Elt F) → (⟨S_, .f32⟩ : BufTy).Contents (Elt F) → (⟨S16x64x3136, .f32⟩ : BufTy).Contents (Elt F)),
    binary main_v62 main_v71 main_v72 (addf : (⟨S16x64x3136, .f32⟩ : BufTy).Contents (Elt F) → (⟨S16x64x3136, .f32⟩ : BufTy).Contents (Elt F) → (⟨S16x64x3136, .f32⟩ : BufTy).Contents (Elt F)),
    unary main_v20 main_v73 ((extractStridedSlice S16x16x3136 ![0, 80, 0] · slices_S16x288x3136_S16x16x3136_0_80_0) : (⟨S16x288x3136, .f32⟩ : BufTy).Contents (Elt F) → (⟨S16x16x3136, .f32⟩ : BufTy).Contents (Elt F)),
    unary main_v21 main_v74 ((extractStridedSlice S64x16 ![0, 80] · slices_S64x288_S64x16_0_80) : (⟨S64x288, .f32⟩ : BufTy).Contents (Elt F) → (⟨S64x16, .f32⟩ : BufTy).Contents (Elt F)),
    unary main_v73 main_v75 (broadcastInDim S16x1x16x3136 ![0, 2, 3] bcast_S16x16x3136_S16x1x16x3136_0_2_3 : (⟨S16x16x3136, .f32⟩ : BufTy).Contents (Elt F) → (⟨S16x1x16x3136, .f32⟩ : BufTy).Contents (Elt F)),
    unary main_v74 main_v76 (broadcastInDim S1x64x16x1 ![1, 2] bcast_S64x16_S1x64x16x1_1_2 : (⟨S64x16, .f32⟩ : BufTy).Contents (Elt F) → (⟨S1x64x16x1, .f32⟩ : BufTy).Contents (Elt F)),
    unary main_v75 main_v77 (broadcastInDim S16x64x16x3136 ![0, 1, 2, 3] bcast_S16x1x16x3136_S16x64x16x3136_0_1_2_3 : (⟨S16x1x16x3136, .f32⟩ : BufTy).Contents (Elt F) → (⟨S16x64x16x3136, .f32⟩ : BufTy).Contents (Elt F)),
    unary main_v76 main_v78 (broadcastInDim S16x64x16x3136 ![0, 1, 2, 3] bcast_S1x64x16x1_S16x64x16x3136_0_1_2_3 : (⟨S1x64x16x1, .f32⟩ : BufTy).Contents (Elt F) → (⟨S16x64x16x3136, .f32⟩ : BufTy).Contents (Elt F)),
    binary main_v77 main_v78 main_v79 (subf : (⟨S16x64x16x3136, .f32⟩ : BufTy).Contents (Elt F) → (⟨S16x64x16x3136, .f32⟩ : BufTy).Contents (Elt F) → (⟨S16x64x16x3136, .f32⟩ : BufTy).Contents (Elt F)),
    unary main_v79 main_v80 (Host.absf : (⟨S16x64x16x3136, .f32⟩ : BufTy).Contents (Elt F) → (⟨S16x64x16x3136, .f32⟩ : BufTy).Contents (Elt F)),
    nullary main_cst_5 (constant S_ .f32 0x00000000#32),
    binary main_v80 main_cst_5 main_v81 ((fun x v => Host.reduceAdd x v reducesTo_S16x64x16x3136_S16x64x3136_d2 h_S_) : (⟨S16x64x16x3136, .f32⟩ : BufTy).Contents (Elt F) → (⟨S_, .f32⟩ : BufTy).Contents (Elt F) → (⟨S16x64x3136, .f32⟩ : BufTy).Contents (Elt F)),
    binary main_v72 main_v81 main_v82 (addf : (⟨S16x64x3136, .f32⟩ : BufTy).Contents (Elt F) → (⟨S16x64x3136, .f32⟩ : BufTy).Contents (Elt F) → (⟨S16x64x3136, .f32⟩ : BufTy).Contents (Elt F)),
    unary main_v20 main_v83 ((extractStridedSlice S16x16x3136 ![0, 96, 0] · slices_S16x288x3136_S16x16x3136_0_96_0) : (⟨S16x288x3136, .f32⟩ : BufTy).Contents (Elt F) → (⟨S16x16x3136, .f32⟩ : BufTy).Contents (Elt F)),
    unary main_v21 main_v84 ((extractStridedSlice S64x16 ![0, 96] · slices_S64x288_S64x16_0_96) : (⟨S64x288, .f32⟩ : BufTy).Contents (Elt F) → (⟨S64x16, .f32⟩ : BufTy).Contents (Elt F)),
    unary main_v83 main_v85 (broadcastInDim S16x1x16x3136 ![0, 2, 3] bcast_S16x16x3136_S16x1x16x3136_0_2_3 : (⟨S16x16x3136, .f32⟩ : BufTy).Contents (Elt F) → (⟨S16x1x16x3136, .f32⟩ : BufTy).Contents (Elt F)),
    unary main_v84 main_v86 (broadcastInDim S1x64x16x1 ![1, 2] bcast_S64x16_S1x64x16x1_1_2 : (⟨S64x16, .f32⟩ : BufTy).Contents (Elt F) → (⟨S1x64x16x1, .f32⟩ : BufTy).Contents (Elt F)),
    unary main_v85 main_v87 (broadcastInDim S16x64x16x3136 ![0, 1, 2, 3] bcast_S16x1x16x3136_S16x64x16x3136_0_1_2_3 : (⟨S16x1x16x3136, .f32⟩ : BufTy).Contents (Elt F) → (⟨S16x64x16x3136, .f32⟩ : BufTy).Contents (Elt F)),
    unary main_v86 main_v88 (broadcastInDim S16x64x16x3136 ![0, 1, 2, 3] bcast_S1x64x16x1_S16x64x16x3136_0_1_2_3 : (⟨S1x64x16x1, .f32⟩ : BufTy).Contents (Elt F) → (⟨S16x64x16x3136, .f32⟩ : BufTy).Contents (Elt F)),
    binary main_v87 main_v88 main_v89 (subf : (⟨S16x64x16x3136, .f32⟩ : BufTy).Contents (Elt F) → (⟨S16x64x16x3136, .f32⟩ : BufTy).Contents (Elt F) → (⟨S16x64x16x3136, .f32⟩ : BufTy).Contents (Elt F)),
    unary main_v89 main_v90 (Host.absf : (⟨S16x64x16x3136, .f32⟩ : BufTy).Contents (Elt F) → (⟨S16x64x16x3136, .f32⟩ : BufTy).Contents (Elt F)),
    nullary main_cst_6 (constant S_ .f32 0x00000000#32),
    binary main_v90 main_cst_6 main_v91 ((fun x v => Host.reduceAdd x v reducesTo_S16x64x16x3136_S16x64x3136_d2 h_S_) : (⟨S16x64x16x3136, .f32⟩ : BufTy).Contents (Elt F) → (⟨S_, .f32⟩ : BufTy).Contents (Elt F) → (⟨S16x64x3136, .f32⟩ : BufTy).Contents (Elt F)),
    binary main_v82 main_v91 main_v92 (addf : (⟨S16x64x3136, .f32⟩ : BufTy).Contents (Elt F) → (⟨S16x64x3136, .f32⟩ : BufTy).Contents (Elt F) → (⟨S16x64x3136, .f32⟩ : BufTy).Contents (Elt F)),
    unary main_v20 main_v93 ((extractStridedSlice S16x16x3136 ![0, 112, 0] · slices_S16x288x3136_S16x16x3136_0_112_0) : (⟨S16x288x3136, .f32⟩ : BufTy).Contents (Elt F) → (⟨S16x16x3136, .f32⟩ : BufTy).Contents (Elt F)),
    unary main_v21 main_v94 ((extractStridedSlice S64x16 ![0, 112] · slices_S64x288_S64x16_0_112) : (⟨S64x288, .f32⟩ : BufTy).Contents (Elt F) → (⟨S64x16, .f32⟩ : BufTy).Contents (Elt F)),
    unary main_v93 main_v95 (broadcastInDim S16x1x16x3136 ![0, 2, 3] bcast_S16x16x3136_S16x1x16x3136_0_2_3 : (⟨S16x16x3136, .f32⟩ : BufTy).Contents (Elt F) → (⟨S16x1x16x3136, .f32⟩ : BufTy).Contents (Elt F)),
    unary main_v94 main_v96 (broadcastInDim S1x64x16x1 ![1, 2] bcast_S64x16_S1x64x16x1_1_2 : (⟨S64x16, .f32⟩ : BufTy).Contents (Elt F) → (⟨S1x64x16x1, .f32⟩ : BufTy).Contents (Elt F)),
    unary main_v95 main_v97 (broadcastInDim S16x64x16x3136 ![0, 1, 2, 3] bcast_S16x1x16x3136_S16x64x16x3136_0_1_2_3 : (⟨S16x1x16x3136, .f32⟩ : BufTy).Contents (Elt F) → (⟨S16x64x16x3136, .f32⟩ : BufTy).Contents (Elt F)),
    unary main_v96 main_v98 (broadcastInDim S16x64x16x3136 ![0, 1, 2, 3] bcast_S1x64x16x1_S16x64x16x3136_0_1_2_3 : (⟨S1x64x16x1, .f32⟩ : BufTy).Contents (Elt F) → (⟨S16x64x16x3136, .f32⟩ : BufTy).Contents (Elt F)),
    binary main_v97 main_v98 main_v99 (subf : (⟨S16x64x16x3136, .f32⟩ : BufTy).Contents (Elt F) → (⟨S16x64x16x3136, .f32⟩ : BufTy).Contents (Elt F) → (⟨S16x64x16x3136, .f32⟩ : BufTy).Contents (Elt F)),
    unary main_v99 main_v100 (Host.absf : (⟨S16x64x16x3136, .f32⟩ : BufTy).Contents (Elt F) → (⟨S16x64x16x3136, .f32⟩ : BufTy).Contents (Elt F)),
    nullary main_cst_7 (constant S_ .f32 0x00000000#32),
    binary main_v100 main_cst_7 main_v101 ((fun x v => Host.reduceAdd x v reducesTo_S16x64x16x3136_S16x64x3136_d2 h_S_) : (⟨S16x64x16x3136, .f32⟩ : BufTy).Contents (Elt F) → (⟨S_, .f32⟩ : BufTy).Contents (Elt F) → (⟨S16x64x3136, .f32⟩ : BufTy).Contents (Elt F)),
    binary main_v92 main_v101 main_v102 (addf : (⟨S16x64x3136, .f32⟩ : BufTy).Contents (Elt F) → (⟨S16x64x3136, .f32⟩ : BufTy).Contents (Elt F) → (⟨S16x64x3136, .f32⟩ : BufTy).Contents (Elt F)),
    unary main_v20 main_v103 ((extractStridedSlice S16x16x3136 ![0, 128, 0] · slices_S16x288x3136_S16x16x3136_0_128_0) : (⟨S16x288x3136, .f32⟩ : BufTy).Contents (Elt F) → (⟨S16x16x3136, .f32⟩ : BufTy).Contents (Elt F)),
    unary main_v21 main_v104 ((extractStridedSlice S64x16 ![0, 128] · slices_S64x288_S64x16_0_128) : (⟨S64x288, .f32⟩ : BufTy).Contents (Elt F) → (⟨S64x16, .f32⟩ : BufTy).Contents (Elt F)),
    unary main_v103 main_v105 (broadcastInDim S16x1x16x3136 ![0, 2, 3] bcast_S16x16x3136_S16x1x16x3136_0_2_3 : (⟨S16x16x3136, .f32⟩ : BufTy).Contents (Elt F) → (⟨S16x1x16x3136, .f32⟩ : BufTy).Contents (Elt F)),
    unary main_v104 main_v106 (broadcastInDim S1x64x16x1 ![1, 2] bcast_S64x16_S1x64x16x1_1_2 : (⟨S64x16, .f32⟩ : BufTy).Contents (Elt F) → (⟨S1x64x16x1, .f32⟩ : BufTy).Contents (Elt F)),
    unary main_v105 main_v107 (broadcastInDim S16x64x16x3136 ![0, 1, 2, 3] bcast_S16x1x16x3136_S16x64x16x3136_0_1_2_3 : (⟨S16x1x16x3136, .f32⟩ : BufTy).Contents (Elt F) → (⟨S16x64x16x3136, .f32⟩ : BufTy).Contents (Elt F)),
    unary main_v106 main_v108 (broadcastInDim S16x64x16x3136 ![0, 1, 2, 3] bcast_S1x64x16x1_S16x64x16x3136_0_1_2_3 : (⟨S1x64x16x1, .f32⟩ : BufTy).Contents (Elt F) → (⟨S16x64x16x3136, .f32⟩ : BufTy).Contents (Elt F)),
    binary main_v107 main_v108 main_v109 (subf : (⟨S16x64x16x3136, .f32⟩ : BufTy).Contents (Elt F) → (⟨S16x64x16x3136, .f32⟩ : BufTy).Contents (Elt F) → (⟨S16x64x16x3136, .f32⟩ : BufTy).Contents (Elt F)),
    unary main_v109 main_v110 (Host.absf : (⟨S16x64x16x3136, .f32⟩ : BufTy).Contents (Elt F) → (⟨S16x64x16x3136, .f32⟩ : BufTy).Contents (Elt F)),
    nullary main_cst_8 (constant S_ .f32 0x00000000#32),
    binary main_v110 main_cst_8 main_v111 ((fun x v => Host.reduceAdd x v reducesTo_S16x64x16x3136_S16x64x3136_d2 h_S_) : (⟨S16x64x16x3136, .f32⟩ : BufTy).Contents (Elt F) → (⟨S_, .f32⟩ : BufTy).Contents (Elt F) → (⟨S16x64x3136, .f32⟩ : BufTy).Contents (Elt F)),
    binary main_v102 main_v111 main_v112 (addf : (⟨S16x64x3136, .f32⟩ : BufTy).Contents (Elt F) → (⟨S16x64x3136, .f32⟩ : BufTy).Contents (Elt F) → (⟨S16x64x3136, .f32⟩ : BufTy).Contents (Elt F)),
    unary main_v20 main_v113 ((extractStridedSlice S16x16x3136 ![0, 144, 0] · slices_S16x288x3136_S16x16x3136_0_144_0) : (⟨S16x288x3136, .f32⟩ : BufTy).Contents (Elt F) → (⟨S16x16x3136, .f32⟩ : BufTy).Contents (Elt F)),
    unary main_v21 main_v114 ((extractStridedSlice S64x16 ![0, 144] · slices_S64x288_S64x16_0_144) : (⟨S64x288, .f32⟩ : BufTy).Contents (Elt F) → (⟨S64x16, .f32⟩ : BufTy).Contents (Elt F)),
    unary main_v113 main_v115 (broadcastInDim S16x1x16x3136 ![0, 2, 3] bcast_S16x16x3136_S16x1x16x3136_0_2_3 : (⟨S16x16x3136, .f32⟩ : BufTy).Contents (Elt F) → (⟨S16x1x16x3136, .f32⟩ : BufTy).Contents (Elt F)),
    unary main_v114 main_v116 (broadcastInDim S1x64x16x1 ![1, 2] bcast_S64x16_S1x64x16x1_1_2 : (⟨S64x16, .f32⟩ : BufTy).Contents (Elt F) → (⟨S1x64x16x1, .f32⟩ : BufTy).Contents (Elt F)),
    unary main_v115 main_v117 (broadcastInDim S16x64x16x3136 ![0, 1, 2, 3] bcast_S16x1x16x3136_S16x64x16x3136_0_1_2_3 : (⟨S16x1x16x3136, .f32⟩ : BufTy).Contents (Elt F) → (⟨S16x64x16x3136, .f32⟩ : BufTy).Contents (Elt F)),
    unary main_v116 main_v118 (broadcastInDim S16x64x16x3136 ![0, 1, 2, 3] bcast_S1x64x16x1_S16x64x16x3136_0_1_2_3 : (⟨S1x64x16x1, .f32⟩ : BufTy).Contents (Elt F) → (⟨S16x64x16x3136, .f32⟩ : BufTy).Contents (Elt F)),
    binary main_v117 main_v118 main_v119 (subf : (⟨S16x64x16x3136, .f32⟩ : BufTy).Contents (Elt F) → (⟨S16x64x16x3136, .f32⟩ : BufTy).Contents (Elt F) → (⟨S16x64x16x3136, .f32⟩ : BufTy).Contents (Elt F)),
    unary main_v119 main_v120 (Host.absf : (⟨S16x64x16x3136, .f32⟩ : BufTy).Contents (Elt F) → (⟨S16x64x16x3136, .f32⟩ : BufTy).Contents (Elt F)),
    nullary main_cst_9 (constant S_ .f32 0x00000000#32),
    binary main_v120 main_cst_9 main_v121 ((fun x v => Host.reduceAdd x v reducesTo_S16x64x16x3136_S16x64x3136_d2 h_S_) : (⟨S16x64x16x3136, .f32⟩ : BufTy).Contents (Elt F) → (⟨S_, .f32⟩ : BufTy).Contents (Elt F) → (⟨S16x64x3136, .f32⟩ : BufTy).Contents (Elt F)),
    binary main_v112 main_v121 main_v122 (addf : (⟨S16x64x3136, .f32⟩ : BufTy).Contents (Elt F) → (⟨S16x64x3136, .f32⟩ : BufTy).Contents (Elt F) → (⟨S16x64x3136, .f32⟩ : BufTy).Contents (Elt F)),
    unary main_v20 main_v123 ((extractStridedSlice S16x16x3136 ![0, 160, 0] · slices_S16x288x3136_S16x16x3136_0_160_0) : (⟨S16x288x3136, .f32⟩ : BufTy).Contents (Elt F) → (⟨S16x16x3136, .f32⟩ : BufTy).Contents (Elt F)),
    unary main_v21 main_v124 ((extractStridedSlice S64x16 ![0, 160] · slices_S64x288_S64x16_0_160) : (⟨S64x288, .f32⟩ : BufTy).Contents (Elt F) → (⟨S64x16, .f32⟩ : BufTy).Contents (Elt F)),
    unary main_v123 main_v125 (broadcastInDim S16x1x16x3136 ![0, 2, 3] bcast_S16x16x3136_S16x1x16x3136_0_2_3 : (⟨S16x16x3136, .f32⟩ : BufTy).Contents (Elt F) → (⟨S16x1x16x3136, .f32⟩ : BufTy).Contents (Elt F)),
    unary main_v124 main_v126 (broadcastInDim S1x64x16x1 ![1, 2] bcast_S64x16_S1x64x16x1_1_2 : (⟨S64x16, .f32⟩ : BufTy).Contents (Elt F) → (⟨S1x64x16x1, .f32⟩ : BufTy).Contents (Elt F)),
    unary main_v125 main_v127 (broadcastInDim S16x64x16x3136 ![0, 1, 2, 3] bcast_S16x1x16x3136_S16x64x16x3136_0_1_2_3 : (⟨S16x1x16x3136, .f32⟩ : BufTy).Contents (Elt F) → (⟨S16x64x16x3136, .f32⟩ : BufTy).Contents (Elt F)),
    unary main_v126 main_v128 (broadcastInDim S16x64x16x3136 ![0, 1, 2, 3] bcast_S1x64x16x1_S16x64x16x3136_0_1_2_3 : (⟨S1x64x16x1, .f32⟩ : BufTy).Contents (Elt F) → (⟨S16x64x16x3136, .f32⟩ : BufTy).Contents (Elt F)),
    binary main_v127 main_v128 main_v129 (subf : (⟨S16x64x16x3136, .f32⟩ : BufTy).Contents (Elt F) → (⟨S16x64x16x3136, .f32⟩ : BufTy).Contents (Elt F) → (⟨S16x64x16x3136, .f32⟩ : BufTy).Contents (Elt F)),
    unary main_v129 main_v130 (Host.absf : (⟨S16x64x16x3136, .f32⟩ : BufTy).Contents (Elt F) → (⟨S16x64x16x3136, .f32⟩ : BufTy).Contents (Elt F)),
    nullary main_cst_10 (constant S_ .f32 0x00000000#32),
    binary main_v130 main_cst_10 main_v131 ((fun x v => Host.reduceAdd x v reducesTo_S16x64x16x3136_S16x64x3136_d2 h_S_) : (⟨S16x64x16x3136, .f32⟩ : BufTy).Contents (Elt F) → (⟨S_, .f32⟩ : BufTy).Contents (Elt F) → (⟨S16x64x3136, .f32⟩ : BufTy).Contents (Elt F)),
    binary main_v122 main_v131 main_v132 (addf : (⟨S16x64x3136, .f32⟩ : BufTy).Contents (Elt F) → (⟨S16x64x3136, .f32⟩ : BufTy).Contents (Elt F) → (⟨S16x64x3136, .f32⟩ : BufTy).Contents (Elt F)),
    unary main_v20 main_v133 ((extractStridedSlice S16x16x3136 ![0, 176, 0] · slices_S16x288x3136_S16x16x3136_0_176_0) : (⟨S16x288x3136, .f32⟩ : BufTy).Contents (Elt F) → (⟨S16x16x3136, .f32⟩ : BufTy).Contents (Elt F)),
    unary main_v21 main_v134 ((extractStridedSlice S64x16 ![0, 176] · slices_S64x288_S64x16_0_176) : (⟨S64x288, .f32⟩ : BufTy).Contents (Elt F) → (⟨S64x16, .f32⟩ : BufTy).Contents (Elt F)),
    unary main_v133 main_v135 (broadcastInDim S16x1x16x3136 ![0, 2, 3] bcast_S16x16x3136_S16x1x16x3136_0_2_3 : (⟨S16x16x3136, .f32⟩ : BufTy).Contents (Elt F) → (⟨S16x1x16x3136, .f32⟩ : BufTy).Contents (Elt F)),
    unary main_v134 main_v136 (broadcastInDim S1x64x16x1 ![1, 2] bcast_S64x16_S1x64x16x1_1_2 : (⟨S64x16, .f32⟩ : BufTy).Contents (Elt F) → (⟨S1x64x16x1, .f32⟩ : BufTy).Contents (Elt F)),
    unary main_v135 main_v137 (broadcastInDim S16x64x16x3136 ![0, 1, 2, 3] bcast_S16x1x16x3136_S16x64x16x3136_0_1_2_3 : (⟨S16x1x16x3136, .f32⟩ : BufTy).Contents (Elt F) → (⟨S16x64x16x3136, .f32⟩ : BufTy).Contents (Elt F)),
    unary main_v136 main_v138 (broadcastInDim S16x64x16x3136 ![0, 1, 2, 3] bcast_S1x64x16x1_S16x64x16x3136_0_1_2_3 : (⟨S1x64x16x1, .f32⟩ : BufTy).Contents (Elt F) → (⟨S16x64x16x3136, .f32⟩ : BufTy).Contents (Elt F)),
    binary main_v137 main_v138 main_v139 (subf : (⟨S16x64x16x3136, .f32⟩ : BufTy).Contents (Elt F) → (⟨S16x64x16x3136, .f32⟩ : BufTy).Contents (Elt F) → (⟨S16x64x16x3136, .f32⟩ : BufTy).Contents (Elt F)),
    unary main_v139 main_v140 (Host.absf : (⟨S16x64x16x3136, .f32⟩ : BufTy).Contents (Elt F) → (⟨S16x64x16x3136, .f32⟩ : BufTy).Contents (Elt F)),
    nullary main_cst_11 (constant S_ .f32 0x00000000#32),
    binary main_v140 main_cst_11 main_v141 ((fun x v => Host.reduceAdd x v reducesTo_S16x64x16x3136_S16x64x3136_d2 h_S_) : (⟨S16x64x16x3136, .f32⟩ : BufTy).Contents (Elt F) → (⟨S_, .f32⟩ : BufTy).Contents (Elt F) → (⟨S16x64x3136, .f32⟩ : BufTy).Contents (Elt F)),
    binary main_v132 main_v141 main_v142 (addf : (⟨S16x64x3136, .f32⟩ : BufTy).Contents (Elt F) → (⟨S16x64x3136, .f32⟩ : BufTy).Contents (Elt F) → (⟨S16x64x3136, .f32⟩ : BufTy).Contents (Elt F)),
    unary main_v20 main_v143 ((extractStridedSlice S16x16x3136 ![0, 192, 0] · slices_S16x288x3136_S16x16x3136_0_192_0) : (⟨S16x288x3136, .f32⟩ : BufTy).Contents (Elt F) → (⟨S16x16x3136, .f32⟩ : BufTy).Contents (Elt F)),
    unary main_v21 main_v144 ((extractStridedSlice S64x16 ![0, 192] · slices_S64x288_S64x16_0_192) : (⟨S64x288, .f32⟩ : BufTy).Contents (Elt F) → (⟨S64x16, .f32⟩ : BufTy).Contents (Elt F)),
    unary main_v143 main_v145 (broadcastInDim S16x1x16x3136 ![0, 2, 3] bcast_S16x16x3136_S16x1x16x3136_0_2_3 : (⟨S16x16x3136, .f32⟩ : BufTy).Contents (Elt F) → (⟨S16x1x16x3136, .f32⟩ : BufTy).Contents (Elt F)),
    unary main_v144 main_v146 (broadcastInDim S1x64x16x1 ![1, 2] bcast_S64x16_S1x64x16x1_1_2 : (⟨S64x16, .f32⟩ : BufTy).Contents (Elt F) → (⟨S1x64x16x1, .f32⟩ : BufTy).Contents (Elt F)),
    unary main_v145 main_v147 (broadcastInDim S16x64x16x3136 ![0, 1, 2, 3] bcast_S16x1x16x3136_S16x64x16x3136_0_1_2_3 : (⟨S16x1x16x3136, .f32⟩ : BufTy).Contents (Elt F) → (⟨S16x64x16x3136, .f32⟩ : BufTy).Contents (Elt F)),
    unary main_v146 main_v148 (broadcastInDim S16x64x16x3136 ![0, 1, 2, 3] bcast_S1x64x16x1_S16x64x16x3136_0_1_2_3 : (⟨S1x64x16x1, .f32⟩ : BufTy).Contents (Elt F) → (⟨S16x64x16x3136, .f32⟩ : BufTy).Contents (Elt F)),
    binary main_v147 main_v148 main_v149 (subf : (⟨S16x64x16x3136, .f32⟩ : BufTy).Contents (Elt F) → (⟨S16x64x16x3136, .f32⟩ : BufTy).Contents (Elt F) → (⟨S16x64x16x3136, .f32⟩ : BufTy).Contents (Elt F)),
    unary main_v149 main_v150 (Host.absf : (⟨S16x64x16x3136, .f32⟩ : BufTy).Contents (Elt F) → (⟨S16x64x16x3136, .f32⟩ : BufTy).Contents (Elt F)),
    nullary main_cst_12 (constant S_ .f32 0x00000000#32),
    binary main_v150 main_cst_12 main_v151 ((fun x v => Host.reduceAdd x v reducesTo_S16x64x16x3136_S16x64x3136_d2 h_S_) : (⟨S16x64x16x3136, .f32⟩ : BufTy).Contents (Elt F) → (⟨S_, .f32⟩ : BufTy).Contents (Elt F) → (⟨S16x64x3136, .f32⟩ : BufTy).Contents (Elt F)),
    binary main_v142 main_v151 main_v152 (addf : (⟨S16x64x3136, .f32⟩ : BufTy).Contents (Elt F) → (⟨S16x64x3136, .f32⟩ : BufTy).Contents (Elt F) → (⟨S16x64x3136, .f32⟩ : BufTy).Contents (Elt F)),
    unary main_v20 main_v153 ((extractStridedSlice S16x16x3136 ![0, 208, 0] · slices_S16x288x3136_S16x16x3136_0_208_0) : (⟨S16x288x3136, .f32⟩ : BufTy).Contents (Elt F) → (⟨S16x16x3136, .f32⟩ : BufTy).Contents (Elt F)),
    unary main_v21 main_v154 ((extractStridedSlice S64x16 ![0, 208] · slices_S64x288_S64x16_0_208) : (⟨S64x288, .f32⟩ : BufTy).Contents (Elt F) → (⟨S64x16, .f32⟩ : BufTy).Contents (Elt F)),
    unary main_v153 main_v155 (broadcastInDim S16x1x16x3136 ![0, 2, 3] bcast_S16x16x3136_S16x1x16x3136_0_2_3 : (⟨S16x16x3136, .f32⟩ : BufTy).Contents (Elt F) → (⟨S16x1x16x3136, .f32⟩ : BufTy).Contents (Elt F)),
    unary main_v154 main_v156 (broadcastInDim S1x64x16x1 ![1, 2] bcast_S64x16_S1x64x16x1_1_2 : (⟨S64x16, .f32⟩ : BufTy).Contents (Elt F) → (⟨S1x64x16x1, .f32⟩ : BufTy).Contents (Elt F)),
    unary main_v155 main_v157 (broadcastInDim S16x64x16x3136 ![0, 1, 2, 3] bcast_S16x1x16x3136_S16x64x16x3136_0_1_2_3 : (⟨S16x1x16x3136, .f32⟩ : BufTy).Contents (Elt F) → (⟨S16x64x16x3136, .f32⟩ : BufTy).Contents (Elt F)),
    unary main_v156 main_v158 (broadcastInDim S16x64x16x3136 ![0, 1, 2, 3] bcast_S1x64x16x1_S16x64x16x3136_0_1_2_3 : (⟨S1x64x16x1, .f32⟩ : BufTy).Contents (Elt F) → (⟨S16x64x16x3136, .f32⟩ : BufTy).Contents (Elt F)),
    binary main_v157 main_v158 main_v159 (subf : (⟨S16x64x16x3136, .f32⟩ : BufTy).Contents (Elt F) → (⟨S16x64x16x3136, .f32⟩ : BufTy).Contents (Elt F) → (⟨S16x64x16x3136, .f32⟩ : BufTy).Contents (Elt F)),
    unary main_v159 main_v160 (Host.absf : (⟨S16x64x16x3136, .f32⟩ : BufTy).Contents (Elt F) → (⟨S16x64x16x3136, .f32⟩ : BufTy).Contents (Elt F)),
    nullary main_cst_13 (constant S_ .f32 0x00000000#32),
    binary main_v160 main_cst_13 main_v161 ((fun x v => Host.reduceAdd x v reducesTo_S16x64x16x3136_S16x64x3136_d2 h_S_) : (⟨S16x64x16x3136, .f32⟩ : BufTy).Contents (Elt F) → (⟨S_, .f32⟩ : BufTy).Contents (Elt F) → (⟨S16x64x3136, .f32⟩ : BufTy).Contents (Elt F)),
    binary main_v152 main_v161 main_v162 (addf : (⟨S16x64x3136, .f32⟩ : BufTy).Contents (Elt F) → (⟨S16x64x3136, .f32⟩ : BufTy).Contents (Elt F) → (⟨S16x64x3136, .f32⟩ : BufTy).Contents (Elt F)),
    unary main_v20 main_v163 ((extractStridedSlice S16x16x3136 ![0, 224, 0] · slices_S16x288x3136_S16x16x3136_0_224_0) : (⟨S16x288x3136, .f32⟩ : BufTy).Contents (Elt F) → (⟨S16x16x3136, .f32⟩ : BufTy).Contents (Elt F)),
    unary main_v21 main_v164 ((extractStridedSlice S64x16 ![0, 224] · slices_S64x288_S64x16_0_224) : (⟨S64x288, .f32⟩ : BufTy).Contents (Elt F) → (⟨S64x16, .f32⟩ : BufTy).Contents (Elt F)),
    unary main_v163 main_v165 (broadcastInDim S16x1x16x3136 ![0, 2, 3] bcast_S16x16x3136_S16x1x16x3136_0_2_3 : (⟨S16x16x3136, .f32⟩ : BufTy).Contents (Elt F) → (⟨S16x1x16x3136, .f32⟩ : BufTy).Contents (Elt F)),
    unary main_v164 main_v166 (broadcastInDim S1x64x16x1 ![1, 2] bcast_S64x16_S1x64x16x1_1_2 : (⟨S64x16, .f32⟩ : BufTy).Contents (Elt F) → (⟨S1x64x16x1, .f32⟩ : BufTy).Contents (Elt F)),
    unary main_v165 main_v167 (broadcastInDim S16x64x16x3136 ![0, 1, 2, 3] bcast_S16x1x16x3136_S16x64x16x3136_0_1_2_3 : (⟨S16x1x16x3136, .f32⟩ : BufTy).Contents (Elt F) → (⟨S16x64x16x3136, .f32⟩ : BufTy).Contents (Elt F)),
    unary main_v166 main_v168 (broadcastInDim S16x64x16x3136 ![0, 1, 2, 3] bcast_S1x64x16x1_S16x64x16x3136_0_1_2_3 : (⟨S1x64x16x1, .f32⟩ : BufTy).Contents (Elt F) → (⟨S16x64x16x3136, .f32⟩ : BufTy).Contents (Elt F)),
    binary main_v167 main_v168 main_v169 (subf : (⟨S16x64x16x3136, .f32⟩ : BufTy).Contents (Elt F) → (⟨S16x64x16x3136, .f32⟩ : BufTy).Contents (Elt F) → (⟨S16x64x16x3136, .f32⟩ : BufTy).Contents (Elt F)),
    unary main_v169 main_v170 (Host.absf : (⟨S16x64x16x3136, .f32⟩ : BufTy).Contents (Elt F) → (⟨S16x64x16x3136, .f32⟩ : BufTy).Contents (Elt F)),
    nullary main_cst_14 (constant S_ .f32 0x00000000#32),
    binary main_v170 main_cst_14 main_v171 ((fun x v => Host.reduceAdd x v reducesTo_S16x64x16x3136_S16x64x3136_d2 h_S_) : (⟨S16x64x16x3136, .f32⟩ : BufTy).Contents (Elt F) → (⟨S_, .f32⟩ : BufTy).Contents (Elt F) → (⟨S16x64x3136, .f32⟩ : BufTy).Contents (Elt F)),
    binary main_v162 main_v171 main_v172 (addf : (⟨S16x64x3136, .f32⟩ : BufTy).Contents (Elt F) → (⟨S16x64x3136, .f32⟩ : BufTy).Contents (Elt F) → (⟨S16x64x3136, .f32⟩ : BufTy).Contents (Elt F)),
    unary main_v20 main_v173 ((extractStridedSlice S16x16x3136 ![0, 240, 0] · slices_S16x288x3136_S16x16x3136_0_240_0) : (⟨S16x288x3136, .f32⟩ : BufTy).Contents (Elt F) → (⟨S16x16x3136, .f32⟩ : BufTy).Contents (Elt F)),
    unary main_v21 main_v174 ((extractStridedSlice S64x16 ![0, 240] · slices_S64x288_S64x16_0_240) : (⟨S64x288, .f32⟩ : BufTy).Contents (Elt F) → (⟨S64x16, .f32⟩ : BufTy).Contents (Elt F)),
    unary main_v173 main_v175 (broadcastInDim S16x1x16x3136 ![0, 2, 3] bcast_S16x16x3136_S16x1x16x3136_0_2_3 : (⟨S16x16x3136, .f32⟩ : BufTy).Contents (Elt F) → (⟨S16x1x16x3136, .f32⟩ : BufTy).Contents (Elt F)),
    unary main_v174 main_v176 (broadcastInDim S1x64x16x1 ![1, 2] bcast_S64x16_S1x64x16x1_1_2 : (⟨S64x16, .f32⟩ : BufTy).Contents (Elt F) → (⟨S1x64x16x1, .f32⟩ : BufTy).Contents (Elt F)),
    unary main_v175 main_v177 (broadcastInDim S16x64x16x3136 ![0, 1, 2, 3] bcast_S16x1x16x3136_S16x64x16x3136_0_1_2_3 : (⟨S16x1x16x3136, .f32⟩ : BufTy).Contents (Elt F) → (⟨S16x64x16x3136, .f32⟩ : BufTy).Contents (Elt F)),
    unary main_v176 main_v178 (broadcastInDim S16x64x16x3136 ![0, 1, 2, 3] bcast_S1x64x16x1_S16x64x16x3136_0_1_2_3 : (⟨S1x64x16x1, .f32⟩ : BufTy).Contents (Elt F) → (⟨S16x64x16x3136, .f32⟩ : BufTy).Contents (Elt F)),
    binary main_v177 main_v178 main_v179 (subf : (⟨S16x64x16x3136, .f32⟩ : BufTy).Contents (Elt F) → (⟨S16x64x16x3136, .f32⟩ : BufTy).Contents (Elt F) → (⟨S16x64x16x3136, .f32⟩ : BufTy).Contents (Elt F)),
    unary main_v179 main_v180 (Host.absf : (⟨S16x64x16x3136, .f32⟩ : BufTy).Contents (Elt F) → (⟨S16x64x16x3136, .f32⟩ : BufTy).Contents (Elt F)),
    nullary main_cst_15 (constant S_ .f32 0x00000000#32),
    binary main_v180 main_cst_15 main_v181 ((fun x v => Host.reduceAdd x v reducesTo_S16x64x16x3136_S16x64x3136_d2 h_S_) : (⟨S16x64x16x3136, .f32⟩ : BufTy).Contents (Elt F) → (⟨S_, .f32⟩ : BufTy).Contents (Elt F) → (⟨S16x64x3136, .f32⟩ : BufTy).Contents (Elt F)),
    binary main_v172 main_v181 main_v182 (addf : (⟨S16x64x3136, .f32⟩ : BufTy).Contents (Elt F) → (⟨S16x64x3136, .f32⟩ : BufTy).Contents (Elt F) → (⟨S16x64x3136, .f32⟩ : BufTy).Contents (Elt F)),
    unary main_v20 main_v183 ((extractStridedSlice S16x16x3136 ![0, 256, 0] · slices_S16x288x3136_S16x16x3136_0_256_0) : (⟨S16x288x3136, .f32⟩ : BufTy).Contents (Elt F) → (⟨S16x16x3136, .f32⟩ : BufTy).Contents (Elt F)),
    unary main_v21 main_v184 ((extractStridedSlice S64x16 ![0, 256] · slices_S64x288_S64x16_0_256) : (⟨S64x288, .f32⟩ : BufTy).Contents (Elt F) → (⟨S64x16, .f32⟩ : BufTy).Contents (Elt F)),
    unary main_v183 main_v185 (broadcastInDim S16x1x16x3136 ![0, 2, 3] bcast_S16x16x3136_S16x1x16x3136_0_2_3 : (⟨S16x16x3136, .f32⟩ : BufTy).Contents (Elt F) → (⟨S16x1x16x3136, .f32⟩ : BufTy).Contents (Elt F)),
    unary main_v184 main_v186 (broadcastInDim S1x64x16x1 ![1, 2] bcast_S64x16_S1x64x16x1_1_2 : (⟨S64x16, .f32⟩ : BufTy).Contents (Elt F) → (⟨S1x64x16x1, .f32⟩ : BufTy).Contents (Elt F)),
    unary main_v185 main_v187 (broadcastInDim S16x64x16x3136 ![0, 1, 2, 3] bcast_S16x1x16x3136_S16x64x16x3136_0_1_2_3 : (⟨S16x1x16x3136, .f32⟩ : BufTy).Contents (Elt F) → (⟨S16x64x16x3136, .f32⟩ : BufTy).Contents (Elt F)),
    unary main_v186 main_v188 (broadcastInDim S16x64x16x3136 ![0, 1, 2, 3] bcast_S1x64x16x1_S16x64x16x3136_0_1_2_3 : (⟨S1x64x16x1, .f32⟩ : BufTy).Contents (Elt F) → (⟨S16x64x16x3136, .f32⟩ : BufTy).Contents (Elt F)),
    binary main_v187 main_v188 main_v189 (subf : (⟨S16x64x16x3136, .f32⟩ : BufTy).Contents (Elt F) → (⟨S16x64x16x3136, .f32⟩ : BufTy).Contents (Elt F) → (⟨S16x64x16x3136, .f32⟩ : BufTy).Contents (Elt F)),
    unary main_v189 main_v190 (Host.absf : (⟨S16x64x16x3136, .f32⟩ : BufTy).Contents (Elt F) → (⟨S16x64x16x3136, .f32⟩ : BufTy).Contents (Elt F)),
    nullary main_cst_16 (constant S_ .f32 0x00000000#32),
    binary main_v190 main_cst_16 main_v191 ((fun x v => Host.reduceAdd x v reducesTo_S16x64x16x3136_S16x64x3136_d2 h_S_) : (⟨S16x64x16x3136, .f32⟩ : BufTy).Contents (Elt F) → (⟨S_, .f32⟩ : BufTy).Contents (Elt F) → (⟨S16x64x3136, .f32⟩ : BufTy).Contents (Elt F)),
    binary main_v182 main_v191 main_v192 (addf : (⟨S16x64x3136, .f32⟩ : BufTy).Contents (Elt F) → (⟨S16x64x3136, .f32⟩ : BufTy).Contents (Elt F) → (⟨S16x64x3136, .f32⟩ : BufTy).Contents (Elt F)),
    unary main_v20 main_v193 ((extractStridedSlice S16x16x3136 ![0, 272, 0] · slices_S16x288x3136_S16x16x3136_0_272_0) : (⟨S16x288x3136, .f32⟩ : BufTy).Contents (Elt F) → (⟨S16x16x3136, .f32⟩ : BufTy).Contents (Elt F)),
    unary main_v21 main_v194 ((extractStridedSlice S64x16 ![0, 272] · slices_S64x288_S64x16_0_272) : (⟨S64x288, .f32⟩ : BufTy).Contents (Elt F) → (⟨S64x16, .f32⟩ : BufTy).Contents (Elt F)),
    unary main_v193 main_v195 (broadcastInDim S16x1x16x3136 ![0, 2, 3] bcast_S16x16x3136_S16x1x16x3136_0_2_3 : (⟨S16x16x3136, .f32⟩ : BufTy).Contents (Elt F) → (⟨S16x1x16x3136, .f32⟩ : BufTy).Contents (Elt F)),
    unary main_v194 main_v196 (broadcastInDim S1x64x16x1 ![1, 2] bcast_S64x16_S1x64x16x1_1_2 : (⟨S64x16, .f32⟩ : BufTy).Contents (Elt F) → (⟨S1x64x16x1, .f32⟩ : BufTy).Contents (Elt F)),
    unary main_v195 main_v197 (broadcastInDim S16x64x16x3136 ![0, 1, 2, 3] bcast_S16x1x16x3136_S16x64x16x3136_0_1_2_3 : (⟨S16x1x16x3136, .f32⟩ : BufTy).Contents (Elt F) → (⟨S16x64x16x3136, .f32⟩ : BufTy).Contents (Elt F)),
    unary main_v196 main_v198 (broadcastInDim S16x64x16x3136 ![0, 1, 2, 3] bcast_S1x64x16x1_S16x64x16x3136_0_1_2_3 : (⟨S1x64x16x1, .f32⟩ : BufTy).Contents (Elt F) → (⟨S16x64x16x3136, .f32⟩ : BufTy).Contents (Elt F)),
    binary main_v197 main_v198 main_v199 (subf : (⟨S16x64x16x3136, .f32⟩ : BufTy).Contents (Elt F) → (⟨S16x64x16x3136, .f32⟩ : BufTy).Contents (Elt F) → (⟨S16x64x16x3136, .f32⟩ : BufTy).Contents (Elt F)),
    unary main_v199 main_v200 (Host.absf : (⟨S16x64x16x3136, .f32⟩ : BufTy).Contents (Elt F) → (⟨S16x64x16x3136, .f32⟩ : BufTy).Contents (Elt F)),
    nullary main_cst_17 (constant S_ .f32 0x00000000#32),
    binary main_v200 main_cst_17 main_v201 ((fun x v => Host.reduceAdd x v reducesTo_S16x64x16x3136_S16x64x3136_d2 h_S_) : (⟨S16x64x16x3136, .f32⟩ : BufTy).Contents (Elt F) → (⟨S_, .f32⟩ : BufTy).Contents (Elt F) → (⟨S16x64x3136, .f32⟩ : BufTy).Contents (Elt F)),
    binary main_v192 main_v201 main_v202 (addf : (⟨S16x64x3136, .f32⟩ : BufTy).Contents (Elt F) → (⟨S16x64x3136, .f32⟩ : BufTy).Contents (Elt F) → (⟨S16x64x3136, .f32⟩ : BufTy).Contents (Elt F)),
    reshape main_v202 main_v203 rfl shapeCasts_S16x64x3136_S16x64x56x56,
    unary main_v203 main_v204 (Host.negf : (⟨S16x64x56x56, .f32⟩ : BufTy).Contents (Elt F) → (⟨S16x64x56x56, .f32⟩ : BufTy).Contents (Elt F)) ]

theorem main_eq (c : Dev nD) : main (F := F) c = seq (layoutOps ++ accumOps) := rfl
theorem scopedRefs_eq : (Finset.univ.filter fun b : Ref sig .tc => b.isScoped) = ∅ := by decide
theorem scopedSems_eq : (Finset.univ.filter fun sm : SemLoc sig => sm.isScoped .tc) = ∅ := by decide

theorem layout_sub : (layoutOps : List (HloOp τ sig (Elt F))).Forall fun op => op.bufs ⊆ tcRefs τ sig :=
  ⟨nullary_bufs_sub .., unary_bufs_sub .., binary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., reshape_bufs_sub .., reshape_bufs_sub ..⟩
theorem accum_sub : (accumOps : List (HloOp τ sig (Elt F))).Forall fun op => op.bufs ⊆ tcRefs τ sig :=
  ⟨nullary_bufs_sub .., unary_bufs_sub .., unary_bufs_sub .., unary_bufs_sub .., unary_bufs_sub .., unary_bufs_sub .., unary_bufs_sub .., unary_bufs_sub .., binary_bufs_sub .., unary_bufs_sub .., nullary_bufs_sub .., binary_bufs_sub .., binary_bufs_sub .., unary_bufs_sub .., unary_bufs_sub .., unary_bufs_sub .., unary_bufs_sub .., unary_bufs_sub .., unary_bufs_sub .., binary_bufs_sub .., unary_bufs_sub .., nullary_bufs_sub .., binary_bufs_sub .., binary_bufs_sub .., unary_bufs_sub .., unary_bufs_sub .., unary_bufs_sub .., unary_bufs_sub .., unary_bufs_sub .., unary_bufs_sub .., binary_bufs_sub .., unary_bufs_sub .., nullary_bufs_sub .., binary_bufs_sub .., binary_bufs_sub .., unary_bufs_sub .., unary_bufs_sub .., unary_bufs_sub .., unary_bufs_sub .., unary_bufs_sub .., unary_bufs_sub .., binary_bufs_sub .., unary_bufs_sub .., nullary_bufs_sub .., binary_bufs_sub .., binary_bufs_sub .., unary_bufs_sub .., unary_bufs_sub .., unary_bufs_sub .., unary_bufs_sub .., unary_bufs_sub .., unary_bufs_sub .., binary_bufs_sub .., unary_bufs_sub .., nullary_bufs_sub .., binary_bufs_sub .., binary_bufs_sub .., unary_bufs_sub .., unary_bufs_sub .., unary_bufs_sub .., unary_bufs_sub .., unary_bufs_sub .., unary_bufs_sub .., binary_bufs_sub .., unary_bufs_sub .., nullary_bufs_sub .., binary_bufs_sub .., binary_bufs_sub .., unary_bufs_sub .., unary_bufs_sub .., unary_bufs_sub .., unary_bufs_sub .., unary_bufs_sub .., unary_bufs_sub .., binary_bufs_sub .., unary_bufs_sub .., nullary_bufs_sub .., binary_bufs_sub .., binary_bufs_sub .., unary_bufs_sub .., unary_bufs_sub .., unary_bufs_sub .., unary_bufs_sub .., unary_bufs_sub .., unary_bufs_sub .., binary_bufs_sub .., unary_bufs_sub .., nullary_bufs_sub .., binary_bufs_sub .., binary_bufs_sub .., unary_bufs_sub .., unary_bufs_sub .., unary_bufs_sub .., unary_bufs_sub .., unary_bufs_sub .., unary_bufs_sub .., binary_bufs_sub .., unary_bufs_sub .., nullary_bufs_sub .., binary_bufs_sub .., binary_bufs_sub .., unary_bufs_sub .., unary_bufs_sub .., unary_bufs_sub .., unary_bufs_sub .., unary_bufs_sub .., unary_bufs_sub .., binary_bufs_sub .., unary_bufs_sub .., nullary_bufs_sub .., binary_bufs_sub .., binary_bufs_sub .., unary_bufs_sub .., unary_bufs_sub .., unary_bufs_sub .., unary_bufs_sub .., unary_bufs_sub .., unary_bufs_sub .., binary_bufs_sub .., unary_bufs_sub .., nullary_bufs_sub .., binary_bufs_sub .., binary_bufs_sub .., unary_bufs_sub .., unary_bufs_sub .., unary_bufs_sub .., unary_bufs_sub .., unary_bufs_sub .., unary_bufs_sub .., binary_bufs_sub .., unary_bufs_sub .., nullary_bufs_sub .., binary_bufs_sub .., binary_bufs_sub .., unary_bufs_sub .., unary_bufs_sub .., unary_bufs_sub .., unary_bufs_sub .., unary_bufs_sub .., unary_bufs_sub .., binary_bufs_sub .., unary_bufs_sub .., nullary_bufs_sub .., binary_bufs_sub .., binary_bufs_sub .., unary_bufs_sub .., unary_bufs_sub .., unary_bufs_sub .., unary_bufs_sub .., unary_bufs_sub .., unary_bufs_sub .., binary_bufs_sub .., unary_bufs_sub .., nullary_bufs_sub .., binary_bufs_sub .., binary_bufs_sub .., unary_bufs_sub .., unary_bufs_sub .., unary_bufs_sub .., unary_bufs_sub .., unary_bufs_sub .., unary_bufs_sub .., binary_bufs_sub .., unary_bufs_sub .., nullary_bufs_sub .., binary_bufs_sub .., binary_bufs_sub .., unary_bufs_sub .., unary_bufs_sub .., unary_bufs_sub .., unary_bufs_sub .., unary_bufs_sub .., unary_bufs_sub .., binary_bufs_sub .., unary_bufs_sub .., nullary_bufs_sub .., binary_bufs_sub .., binary_bufs_sub .., unary_bufs_sub .., unary_bufs_sub .., unary_bufs_sub .., unary_bufs_sub .., unary_bufs_sub .., unary_bufs_sub .., binary_bufs_sub .., unary_bufs_sub .., nullary_bufs_sub .., binary_bufs_sub .., binary_bufs_sub .., unary_bufs_sub .., unary_bufs_sub .., unary_bufs_sub .., unary_bufs_sub .., unary_bufs_sub .., unary_bufs_sub .., binary_bufs_sub .., unary_bufs_sub .., nullary_bufs_sub .., binary_bufs_sub .., binary_bufs_sub .., reshape_bufs_sub .., unary_bufs_sub ..⟩
theorem ops_sub : (layoutOps ++ accumOps : List (HloOp τ sig (Elt F))).Forall fun op => op.bufs ⊆ tcRefs τ sig :=
  List.forall_append.mpr ⟨layout_sub, accum_sub⟩

theorem layout_noAlloc : (layoutOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩
theorem accum_noAlloc : (accumOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_fresh : ∀ op ∈ (layoutOps ++ accumOps : List (HloOp τ sig (Elt F))), op.fresh = ∅ :=
  List.forall_iff_forall_mem.mp (List.forall_append.mpr ⟨layout_noAlloc, accum_noAlloc⟩)

end Cert.ReferenceIdeal.TwoStretch

end
-- ==== Proof.ReferenceReads.lean ====
/-
  What each stretch of the reference leaves in the buffers.

  From ANY buffer contents the 24 layout operations leave `patches` of the first argument's contents in the patch
  array's buffer and `flatW` of the second's in the flattened weights' buffer; from ANY buffer contents the other 202
  leave, in the result buffer, `resultOf` of the contents of those two buffers — which are read as they are, not
  opened. No operation of either stretch writes an argument.
-/
import proofs.«110658_j30760555774424_2_alg».proof.Proof.ReferenceOps

set_option maxRecDepth 65536
set_option maxHeartbeats 4000000

noncomputable section

namespace Cert.ReferenceIdeal.TwoStretch

open Cert.ReferenceIdeal Cert.ReferenceIdeal.Gen Cert.ReferenceIdeal.Chunk
open Idealize.ShloMosaic Idealize.ShloMosaic.TcCoe Idealize.SL.Sem Idealize.ShloMosaic.StableHlo

variable {F : FTy → Type} [FloatOps F]

theorem layout_patches (V : Valuation τ sig (Elt F)) :
    after layoutOps V (Proc.devRef .tc main_v20) = patches (V (Proc.devRef .tc main_arg0)) := by
  after_results_simp <;> rfl

theorem layout_flatW (V : Valuation τ sig (Elt F)) :
    after layoutOps V (Proc.devRef .tc main_v21) = flatW (V (Proc.devRef .tc main_arg1)) := by
  after_results_simp <;> rfl

theorem layout_arg0 (V : Valuation τ sig (Elt F)) :
    after layoutOps V (Proc.devRef .tc main_arg0) = V (Proc.devRef .tc main_arg0) := by
  after_results_simp
theorem layout_arg1 (V : Valuation τ sig (Elt F)) :
    after layoutOps V (Proc.devRef .tc main_arg1) = V (Proc.devRef .tc main_arg1) := by
  after_results_simp

theorem accum_result (V : Valuation τ sig (Elt F)) :
    after accumOps V (Proc.devRef .tc main_v204) = resultOf (V (Proc.devRef .tc main_v20)) (V (Proc.devRef .tc main_v21)) := by
  after_results_simp <;> rfl

theorem accum_arg0 (V : Valuation τ sig (Elt F)) :
    after accumOps V (Proc.devRef .tc main_arg0) = V (Proc.devRef .tc main_arg0) := by
  after_results_simp
theorem accum_arg1 (V : Valuation τ sig (Elt F)) :
    after accumOps V (Proc.devRef .tc main_arg1) = V (Proc.devRef .tc main_arg1) := by
  after_results_simp

end Cert.ReferenceIdeal.TwoStretch

end
-- ==== Proof.ReferenceRun.lean ====
/-
  The reference's run.

  Every weakly fair execution of a straight line of host operations terminates with each buffer at the operations'
  results composed in order. Read as "the last 202 operations, from the buffers the first 24 leave", the reference's
  result is `resultOf` of the patch array and the flattened weights of its arguments, and its arguments are unchanged.
  (Composing all 226 operations into one term would write the 22-operation term of the patch array out eighteen
  times; read in two stretches it is never written out at all.)
-/
import proofs.«110658_j30760555774424_2_alg».proof.Proof.ReferenceOps
import proofs.«110658_j30760555774424_2_alg».proof.Proof.ReferenceReads
import Idealize.ShloMosaic.Lib.Pipeline.Frame

set_option maxRecDepth 65536
set_option maxHeartbeats 4000000

noncomputable section

namespace Cert.ReferenceIdeal.TwoStretch

open Cert.ReferenceIdeal Cert.ReferenceIdeal.Gen Cert.ReferenceIdeal.Chunk
open Idealize.ShloMosaic Idealize.ShloMosaic.TcCoe Idealize.SL.Sem Idealize.ShloMosaic.StableHlo

variable {F : FTy → Type} [FloatOps F]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v204)
        = resultOf (patches (m ((c.tc : Thread nD τ).loc main_arg0))) (flatW (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c main_v204).trans (by rw [StableHlo.after_append, accum_result, layout_patches, layout_flatW]),
     (h c main_arg0).trans (by rw [StableHlo.after_append, accum_arg0, layout_arg0]),
     (h c main_arg1).trans (by rw [StableHlo.after_append, accum_arg1, layout_arg1])⟩)
    (run_seq scopedRefs_eq scopedSems_eq defs main (fun _ => layoutOps ++ accumOps) main_eq (fun _ => ops_sub) m ρ
      (hfresh := fun _ => ops_fresh))

end Cert.ReferenceIdeal.TwoStretch

end
-- ==== Proof.KernelRegion.lean ====
/-
  The run of the L1-distance ("adder") correlation program around its one kernel launch, for any float
  instance.

  Before the launch the host lays the input out: x is padded by one zero on each side of its two
  spatial axes, its nine shifted 56×56 windows are stacked along a new axis and flattened, giving the
  patch array X[n, k, l] with k = (c, kh, kw) flattened over 32·9 = 288 and l = (i, j) flattened over
  56·56 = 3136; the weights are flattened to Wc[f, k]. The launch visits the grid (n, ft) ∈ 16 × 4; at
  a point the kernel reads the slab X[n, ·, ·], the sixteen weight rows Wc[16·ft + f', ·] and writes the
  sixteen output rows O[n, 16·ft + f', ·]. After the launch the host reshapes O to [16, 64, 56, 56].

  The kernel body is straight-line: it loads its two input blocks whole, loads its output block (the
  value is not used), and stores one value over the whole output block. So what the output block holds
  after the body is that one stored value (`leaves`), a function of the two input blocks; the input
  blocks are left as found. The two input arrays and the two arguments are never written.

  This module states the contents of every buffer when the launch is entered (`V`), the proof data of
  the launch (`dats`), proves the body's triple at every grid point, and concludes the run (`run_main`):
  every weakly fair execution terminates without fault, the output array holds what the grid points wrote
  back, and every other buffer holds what the host lines around the launch leave. `frame` reads off it
  that the two arguments end unchanged.
-/
import proofs.«110658_j30760555774424_2_alg».proof.Proof.Gen.Kernel.Launch
import proofs.«110658_j30760555774424_2_alg».proof.Proof.Gen.Kernel.Skeleton
import proofs.«110658_j30760555774424_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the launch -/

/-- The buffers of core `c` when the launch is entered: the launch memory after the host lines before it (the integer
    zero, the padding, the nine windows, their stacking and the two flattenings). -/
abbrev V0 (c : Dev nD) : Valuation τ sig (Elt F) :=
  StableHlo.after (List.flatten [hostOps0, hostOps0_1, hostOps0_2]) (fun b => m (c, b))
/-- The same, read at one buffer. -/
abbrev V (c : Dev nD) (b : Ref sig .tc) : Buf (Elt F) ((c : Thread nD τ).loc b) := V0 m c (Proc.devRef .tc b)

/-- No host line allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host lines before the launch, the launch, the one reshape after it. So a run of it reduces to a
    run of the launch from the contents `V`, continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The reshape after the launch touches the launch's output array and its own result only: buffers of the device that
    are no staging buffer. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result, which is none of the launch's three arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- Every host line before the launch writes a buffer of its own, never an argument: the launch finds `x` as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- And the weights likewise. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

/-- The reshape after the launch does not write `x`, and `x` is none of the launch's arrays: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- The weights likewise. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The blocks the launch hands the kernel -/

/-- Window `w`'s block at grid point `t`, read off its array as the launch finds it: for the patch array the slab
    `X[n, ·, ·]`, for the weights the rows `Wc[16·ft .. 16·ft + 15, ·]`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The patch slab is fetched only when `n` changes (every fourth point); at the points in between the staging buffer
    still holds it, because the body leaves it as found and the block index has not moved. So at EVERY point the body
    finds the point's slab there. -/
theorem before_x_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weight rows are fetched at every point; the same statement holds of them. -/
theorem before_w_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged, given the run -/

/-- From a run of the program to the library's post — the launch's arrays at what the points wrote back, every other
    device buffer at what the reshape after the launch leaves — the two arguments, which are no array of the launch and
    which no host line writes, end as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## What the body leaves in the output block -/

/-- The three whole-block rectangles the body reads and writes through. -/
abbrev rx : Rect S1x288x3136 := Rect.unit (s := S1x288x3136) ![0, 0, 0] S1x288x3136.size inb_S1x288x3136_S1x288x3136_0_0_0
abbrev rw' : Rect S16x288 := Rect.unit (s := S16x288) ![0, 0] S16x288.size inb_S16x288_S16x288_0_0
abbrev ro : Rect S1x16x3136 := Rect.unit (s := S1x16x3136) ![0, 0, 0] S1x16x3136.size inb_S1x16x3136_S1x16x3136_0_0_0

/-- The value the body stores, as a function of its two loaded blocks: the body's arithmetic, which the program's text
    gives in four consecutive stretches, composed. -/
def stored (v0 : Vec F S1x288x3136 .f32) (v2 : Vec F S16x288 .f32) : FVec F S1x16x3136 .f32 :=
  k0_pay1 (k0_pay2 v0) (k0_pay3 v2)
    (k0_pay9 (k0_pay2 v0) (k0_pay3 v2) (k0_pay7 (k0_pay2 v0) (k0_pay3 v2) (k0_pay4 v0 v2) (k0_pay5 v2) (k0_pay6 v0)) (k0_pay8 (k0_pay2 v0) (k0_pay3 v2)))
    (k0_pay10 (k0_pay2 v0)) (k0_pay11 (k0_pay3 v2))

/-- The output block after the body: its one store, over the whole block, of `stored` of the input blocks. -/
def leaves (x0 : Vec F S1x288x3136 .f32) (x1 : Vec F S16x288 .f32) : Vec F S1x16x3136 .f32 :=
  View.canon [⟨ro, stored (View.ld x0 rx) (View.ld x1 rw')⟩]

/-- That store covers the block. -/
theorem covers (p0 : Vec F S1x16x3136 .f32) (y : S1x16x3136.Idx) :
    ∃ pc ∈ ([⟨ro, p0⟩] : List (View.Piece (Elt F) S1x16x3136 .f32)), y ∈ pc.1.set :=
  View.cover_of_tiled [⟨ro, p0⟩] S1x16x3136.size (by rfl) y

/-! ## The body's triple -/

set_option maxHeartbeats 4000000 in
/-- The body, on whole staging buffers — the two inputs' at read contents `x0`, `x1`, the output's at anything —, runs
    to its end without fault, leaving the inputs' as they were and the output's at `leaves x0 x1`. -/
theorem sound_kernel (c : Dev nD) (E : Set ℕ) (i : grid0.Coords)
    (arg2 : Memref sig .tc .vmem S1x288x3136 .f32) (harg2 : arg2.IsWhole)
    (arg3 : Memref sig .tc .vmem S16x288 .f32) (harg3 : arg3.IsWhole)
    (arg4 : Memref sig .tc .vmem S1x16x3136 .f32) (harg4 : arg4.IsWhole)
    (x0 : Vec F S1x288x3136 .f32) (x1 : Vec F S16x288 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (leaves x0 x1)) -∗ K ⟨⟩))
      ⊢ wp frame (wpE (defs₀ (F := F)) Variants.none c none) E (cc0__adder2d_kernel i arg2 harg2 arg3 harg3 arg4 harg4) K := by
  simp only [cc0__adder2d_kernel_eq_skeleton]; unfold cc0__adder2d_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers _)

/-! ## The launch's proof data -/

/-- On core `c`: the arrays as the launch finds them (`V`); after the body at point `t` each input's staging buffer at
    its block and the output's at `leaves` of the two input blocks; nothing else held by the kernel; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => leaves (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_o (c : Dev nD) (t : Fin cfg0.N) : (dats m 0 c).after 2 t = leaves (iblk m c 0 t) (iblk m c 1 t) := by dsimp only [dats]

theorem before_x (c : Dev nD) (t : Fin cfg0.N) (d) : (dats m 0 c).before 0 t d = iblk m c 0 t :=
  before_x_of m (dats m 0 c) (A_eq m c 0) (after_x m c) t d
theorem before_w (c : Dev nD) (t : Fin cfg0.N) (d) : (dats m 0 c).before 1 t d = iblk m c 1 t :=
  before_w_of m (dats m 0 c) (A_eq m c 1) (after_w m c) t d

/-! ## The body at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- At any point the input buffers hold the point's blocks (`before_x`, `before_w`), so the body's triple applies; the
    rest of what the launch holds passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w]
  rw [show (dats m 0 c).Φ t.succ = (dats m 0 c).Φ t.castSucc from rfl,
    show (dats m 0 c).owesAt () t.succ = (dats m 0 c).owesAt () t.castSucc from rfl,
    after_x, after_w, after_o]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any launch memory with the counters at zero, every weakly fair execution of the program on the TensorCores
    terminates without fault; at the end each of the launch's arrays holds what the library computes from the proof data
    (the output array: the points' blocks written back in order) and every other device buffer what the reshape after the
    launch leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The program runs to its end, faults nowhere, and its two arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.Kernel.Region

end
-- ==== Proof.KernelIdealRegion.lean ====
/-
  The run of the L1-distance ("adder") correlation program around its one kernel launch, for any float
  instance.

  Before the launch the host lays the input out: x is padded by one zero on each side of its two
  spatial axes, its nine shifted 56×56 windows are stacked along a new axis and flattened, giving the
  patch array X[n, k, l] with k = (c, kh, kw) flattened over 32·9 = 288 and l = (i, j) flattened over
  56·56 = 3136; the weights are flattened to Wc[f, k]. The launch visits the grid (n, ft) ∈ 16 × 4; at
  a point the kernel reads the slab X[n, ·, ·], the sixteen weight rows Wc[16·ft + f', ·] and writes the
  sixteen output rows O[n, 16·ft + f', ·]. After the launch the host reshapes O to [16, 64, 56, 56].

  The kernel body is straight-line: it loads its two input blocks whole, loads its output block (the
  value is not used), and stores one value over the whole output block. So what the output block holds
  after the body is that one stored value (`leaves`), a function of the two input blocks; the input
  blocks are left as found. The two input arrays and the two arguments are never written.

  This module states the contents of every buffer when the launch is entered (`V`), the proof data of
  the launch (`dats`), proves the body's triple at every grid point, and concludes the run (`run_main`):
  every weakly fair execution terminates without fault, the output array holds what the grid points wrote
  back, and every other buffer holds what the host lines around the launch leave. `frame` reads off it
  that the two arguments end unchanged.
-/
import proofs.«110658_j30760555774424_2_alg».proof.Proof.Gen.KernelIdeal.Launch
import proofs.«110658_j30760555774424_2_alg».proof.Proof.Gen.KernelIdeal.Skeleton
import proofs.«110658_j30760555774424_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the launch -/

/-- The buffers of core `c` when the launch is entered: the launch memory after the host lines before it (the integer
    zero, the padding, the nine windows, their stacking and the two flattenings). -/
abbrev V0 (c : Dev nD) : Valuation τ sig (Elt F) :=
  StableHlo.after (List.flatten [hostOps0, hostOps0_1, hostOps0_2]) (fun b => m (c, b))
/-- The same, read at one buffer. -/
abbrev V (c : Dev nD) (b : Ref sig .tc) : Buf (Elt F) ((c : Thread nD τ).loc b) := V0 m c (Proc.devRef .tc b)

/-- No host line allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host lines before the launch, the launch, the one reshape after it. So a run of it reduces to a
    run of the launch from the contents `V`, continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The reshape after the launch touches the launch's output array and its own result only: buffers of the device that
    are no staging buffer. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result, which is none of the launch's three arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- Every host line before the launch writes a buffer of its own, never an argument: the launch finds `x` as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- And the weights likewise. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

/-- The reshape after the launch does not write `x`, and `x` is none of the launch's arrays: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- The weights likewise. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The blocks the launch hands the kernel -/

/-- Window `w`'s block at grid point `t`, read off its array as the launch finds it: for the patch array the slab
    `X[n, ·, ·]`, for the weights the rows `Wc[16·ft .. 16·ft + 15, ·]`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The patch slab is fetched only when `n` changes (every fourth point); at the points in between the staging buffer
    still holds it, because the body leaves it as found and the block index has not moved. So at EVERY point the body
    finds the point's slab there. -/
theorem before_x_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weight rows are fetched at every point; the same statement holds of them. -/
theorem before_w_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged, given the run -/

/-- From a run of the program to the library's post — the launch's arrays at what the points wrote back, every other
    device buffer at what the reshape after the launch leaves — the two arguments, which are no array of the launch and
    which no host line writes, end as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## What the body leaves in the output block -/

/-- The three whole-block rectangles the body reads and writes through. -/
abbrev rx : Rect S1x288x3136 := Rect.unit (s := S1x288x3136) ![0, 0, 0] S1x288x3136.size inb_S1x288x3136_S1x288x3136_0_0_0
abbrev rw' : Rect S16x288 := Rect.unit (s := S16x288) ![0, 0] S16x288.size inb_S16x288_S16x288_0_0
abbrev ro : Rect S1x16x3136 := Rect.unit (s := S1x16x3136) ![0, 0, 0] S1x16x3136.size inb_S1x16x3136_S1x16x3136_0_0_0

/-- The value the body stores, as a function of its two loaded blocks: the body's arithmetic, which the program's text
    gives in four consecutive stretches, composed. -/
def stored (v0 : Vec F S1x288x3136 .f32) (v2 : Vec F S16x288 .f32) : FVec F S1x16x3136 .f32 :=
  k0_pay1 (k0_pay2 v0) (k0_pay3 v2)
    (k0_pay9 (k0_pay2 v0) (k0_pay3 v2) (k0_pay7 (k0_pay2 v0) (k0_pay3 v2) (k0_pay4 v0 v2) (k0_pay5 v2) (k0_pay6 v0)) (k0_pay8 (k0_pay2 v0) (k0_pay3 v2)))
    (k0_pay10 (k0_pay2 v0)) (k0_pay11 (k0_pay3 v2))

/-- The output block after the body: its one store, over the whole block, of `stored` of the input blocks. -/
def leaves (x0 : Vec F S1x288x3136 .f32) (x1 : Vec F S16x288 .f32) : Vec F S1x16x3136 .f32 :=
  View.canon [⟨ro, stored (View.ld x0 rx) (View.ld x1 rw')⟩]

/-- That store covers the block. -/
theorem covers (p0 : Vec F S1x16x3136 .f32) (y : S1x16x3136.Idx) :
    ∃ pc ∈ ([⟨ro, p0⟩] : List (View.Piece (Elt F) S1x16x3136 .f32)), y ∈ pc.1.set :=
  View.cover_of_tiled [⟨ro, p0⟩] S1x16x3136.size (by rfl) y

/-! ## The body's triple -/

set_option maxHeartbeats 4000000 in
/-- The body, on whole staging buffers — the two inputs' at read contents `x0`, `x1`, the output's at anything —, runs
    to its end without fault, leaving the inputs' as they were and the output's at `leaves x0 x1`. -/
theorem sound_kernel (c : Dev nD) (E : Set ℕ) (i : grid0.Coords)
    (arg2 : Memref sig .tc .vmem S1x288x3136 .f32) (harg2 : arg2.IsWhole)
    (arg3 : Memref sig .tc .vmem S16x288 .f32) (harg3 : arg3.IsWhole)
    (arg4 : Memref sig .tc .vmem S1x16x3136 .f32) (harg4 : arg4.IsWhole)
    (x0 : Vec F S1x288x3136 .f32) (x1 : Vec F S16x288 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (leaves x0 x1)) -∗ K ⟨⟩))
      ⊢ wp frame (wpE (defs₀ (F := F)) Variants.none c none) E (cc0__adder2d_kernel i arg2 harg2 arg3 harg3 arg4 harg4) K := by
  simp only [cc0__adder2d_kernel_eq_skeleton]; unfold cc0__adder2d_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers _)

/-! ## The launch's proof data -/

/-- On core `c`: the arrays as the launch finds them (`V`); after the body at point `t` each input's staging buffer at
    its block and the output's at `leaves` of the two input blocks; nothing else held by the kernel; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => leaves (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_o (c : Dev nD) (t : Fin cfg0.N) : (dats m 0 c).after 2 t = leaves (iblk m c 0 t) (iblk m c 1 t) := by dsimp only [dats]

theorem before_x (c : Dev nD) (t : Fin cfg0.N) (d) : (dats m 0 c).before 0 t d = iblk m c 0 t :=
  before_x_of m (dats m 0 c) (A_eq m c 0) (after_x m c) t d
theorem before_w (c : Dev nD) (t : Fin cfg0.N) (d) : (dats m 0 c).before 1 t d = iblk m c 1 t :=
  before_w_of m (dats m 0 c) (A_eq m c 1) (after_w m c) t d

/-! ## The body at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- At any point the input buffers hold the point's blocks (`before_x`, `before_w`), so the body's triple applies; the
    rest of what the launch holds passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w]
  rw [show (dats m 0 c).Φ t.succ = (dats m 0 c).Φ t.castSucc from rfl,
    show (dats m 0 c).owesAt () t.succ = (dats m 0 c).owesAt () t.castSucc from rfl,
    after_x, after_w, after_o]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any launch memory with the counters at zero, every weakly fair execution of the program on the TensorCores
    terminates without fault; at the end each of the launch's arrays holds what the library computes from the proof data
    (the output array: the points' blocks written back in order) and every other device buffer what the reshape after the
    launch leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The program runs to its end, faults nowhere, and its two arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.KernelIdeal.Region

end
-- ==== Proof.KernelChunk.lean ====
/-
  One chunk of the kernel body, read at an element.

  The body handles the 288 patch positions sixteen at a time. For the chunk starting at position `o` it cuts rows
  o..o+15 out of the slab (a 288×3136 matrix: position × output pixel) and columns o..o+15 out of the sixteen weight
  rows, spreads both over the common index (f', k, l) ∈ 16 × 16 × 3136 — the slab's piece does not depend on f', the
  weights' piece not on l —, subtracts, takes absolute values and sums over k. At (f', l) that is
  Σ_{k<16} |slab(o+k, l) − weights(f', o+k)|: `L1.taps` of column l of the slab and row f' of the weights.
-/
import proofs.«110658_j30760555774424_2_alg».proof.Proof.Gen.KernelIdeal
import proofs.«110658_j30760555774424_2_alg».proof.Proof.TapSums
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Chunk

open Cert.KernelIdeal.Gen
open Idealize.ShloMosaic Idealize.ShloMosaic.ValueIdx

variable {F : FTy → Type} [FloatOps F]

/-- The chunk from position `o`, as the body computes it from the slab `v1` and the weight rows `v3`. -/
def tapsK (o : Nat) (hx : S288x3136.Slices ![o, 0] S16x3136) (hw : S16x288.Slices ![0, o] S16x16)
    (v1 : FVec F S288x3136 .f32) (v3 : FVec F S16x288 .f32) : FVec F S16x3136 .f32 :=
  multiReduction .add [1] S16x3136
    (absf (subf
      (broadcastTo S16x16x3136 (shapeCast S1x16x3136 (extractStridedSlice S16x3136 ![o, 0] v1 hx) shapeCasts_S16x3136_S1x16x3136) broadcasts_S1x16x3136_S16x16x3136)
      (broadcastTo S16x16x3136 (shapeCast S16x16x1 (extractStridedSlice S16x16 ![0, o] v3 hw) shapeCasts_S16x16_S16x16x1) broadcasts_S16x16x1_S16x16x3136)))
    0x00000000#32 reduces_S16x16x3136_S16x3136 (.inl rfl) rfl

/-- The slab's piece spread over (f', k, l) is the slab at (o + k, l), whatever f'. -/
theorem slab_apply (o : Nat) (hx : S288x3136.Slices ![o, 0] S16x3136) (v1 : FVec Ideal S288x3136 .f32)
    (f' k : Fin 16) (l : Fin 3136) :
    broadcastTo S16x16x3136 (shapeCast S1x16x3136 (extractStridedSlice S16x3136 ![o, 0] v1 hx) shapeCasts_S16x3136_S1x16x3136) broadcasts_S1x16x3136_S16x16x3136 (ix3 f' k l)
      = v1 (ix2 ⟨o + k.val, Nat.lt_of_lt_of_le (Nat.add_lt_add_left k.isLt o) (hx.2 0)⟩ l) := by
  refine (broadcastTo_apply _ broadcasts_S1x16x3136_S16x16x3136 (ix3 f' k l) (ix3 (0 : Fin 1) k l) (fun a => ?_)).trans ?_
  · match a with
    | ⟨0, _⟩ => rfl
    | ⟨1, _⟩ => rfl
    | ⟨2, _⟩ => rfl
  · refine (shapeCast_ab_1ab_apply _ shapeCasts_S16x3136_S1x16x3136 (0 : Fin 1) k l).trans ?_
    exact slice2_axis0_apply o v1 hx k l _ rfl

/-- The weights' piece spread over (f', k, l) is the weights at (f', o + k), whatever l. -/
theorem weights_apply (o : Nat) (hw : S16x288.Slices ![0, o] S16x16) (v3 : FVec Ideal S16x288 .f32)
    (f' k : Fin 16) (l : Fin 3136) :
    broadcastTo S16x16x3136 (shapeCast S16x16x1 (extractStridedSlice S16x16 ![0, o] v3 hw) shapeCasts_S16x16_S16x16x1) broadcasts_S16x16x1_S16x16x3136 (ix3 f' k l)
      = v3 (ix2 f' ⟨o + k.val, Nat.lt_of_lt_of_le (Nat.add_lt_add_left k.isLt o) (hw.2 1)⟩) := by
  refine (broadcastTo_apply _ broadcasts_S16x16x1_S16x16x3136 (ix3 f' k l) (ix3 f' k (0 : Fin 1)) (fun a => ?_)).trans ?_
  · match a with
    | ⟨0, _⟩ => rfl
    | ⟨1, _⟩ => rfl
    | ⟨2, _⟩ => rfl
  · refine (shapeCast_apply _ shapeCasts_S16x16_S16x16x1 (ix3 f' k (0 : Fin 1)) (ix2 f' k) ?_).trans ?_
    · rw [Shape.rowMajor_val_two, Shape.rowMajor_val_three]
      show f'.val * 16 + k.val = (f'.val * 16 + k.val) * 1 + 0
      omega
    · exact slice2_axis1_apply o v3 hw f' k _ rfl

/-- The chunk at (f', l): the sixteen taps from `o` of column l of the slab against row f' of the weights. -/
theorem tapsK_apply (o : Nat) (hx : S288x3136.Slices ![o, 0] S16x3136) (hw : S16x288.Slices ![0, o] S16x16)
    (v1 : FVec Ideal S288x3136 .f32) (v3 : FVec Ideal S16x288 .f32) (f' : Fin 16) (l : Fin 3136) :
    tapsK o hx hw v1 v3 (ix2 f' l)
      = L1.taps (fun k => v1 (ix2 k l)) (fun k => v3 (ix2 f' k)) o (hx.2 0) := by
  unfold tapsK L1.taps
  refine (Ideal.multiReduction_add_single _ 0x00000000#32 reduces_S16x16x3136_S16x3136 (.inl rfl) rfl (ix2 f' l)).trans ?_
  refine Finset.sum_congr rfl fun (k : Fin 16) _ => ?_
  have hl : (reduces_S16x16x3136_S16x3136).lift (ix2 f' l) k = ix3 f' k l := by
    funext a; apply Fin.ext
    match a with
    | ⟨0, _⟩ => rfl
    | ⟨1, _⟩ => rfl
    | ⟨2, _⟩ => rfl
  refine (congrArg _ hl).trans ?_
  exact congrArg₂ (fun a b => FloatOps.absf (F := Ideal) (φ := .f32) (FloatOps.subf a b))
    (slab_apply o hx v1 f' k l) (weights_apply o hw v3 f' k l)

end Cert.KernelIdeal.Chunk

end
-- ==== Proof.KernelBlock.lean ====
/-
  What one grid point stores, read at an element.

  The value the body stores is, in the chunk vocabulary, 0 − ((…((0 + chunk₀) + chunk₁₆) + …) + chunk₂₇₂), cast to
  the [1, 16, 3136] block (`blockTerm`); the slab is the [1, 288, 3136] input block with its unit axis dropped, the
  weight rows the [16, 288] block as it is. That is the body's arithmetic with its eighteen repeated stretches
  named (`stored_eq`, for any float instance, by unfolding the definitions). At the extended reals, at element
  (·, f', l), each chunk is sixteen taps of column l of the slab against weight row f', zero plus a sum is the sum,
  zero minus it its negative: the block term is −dist (column l) (row f') (`blockTerm_apply`). When the two input
  blocks are the slab X[n, ·, ·] of the patch array and rows of the flattened weights Wc, the stored value is
  −dist (X[n, ·, l]) (Wc[f, ·]) (`block_value`).
-/
import proofs.«110658_j30760555774424_2_alg».proof.Proof.KernelIdealRegion
import proofs.«110658_j30760555774424_2_alg».proof.Proof.KernelChunk
import proofs.«110658_j30760555774424_2_alg».proof.Proof.TapSums

set_option maxRecDepth 65536

noncomputable section

namespace Cert.KernelIdeal.Block

open Cert.KernelIdeal.Gen Cert.KernelIdeal.Region Cert.KernelIdeal.Chunk
open Idealize.ShloMosaic Idealize.ShloMosaic.ValueIdx

/-- The stored value from the slab `v1` and the weight rows `v3`, its eighteen chunks named. -/
def blockTerm {F : FTy → Type} [FloatOps F] (v1 : FVec F S288x3136 .f32) (v3 : FVec F S16x288 .f32) : FVec F S1x16x3136 .f32 :=
  shapeCast S1x16x3136 (subf (broadcast S16x3136 (Scalar.ofBits .f32 0x00000000#32)) (addf (addf (addf (addf (addf (addf (addf (addf (addf (addf (addf (addf (addf (addf (addf (addf (addf (addf (broadcast S16x3136 (Scalar.ofBits .f32 0x00000000#32)) (tapsK 0 slices_S288x3136_o0_0_S16x3136 slices_S16x288_o0_0_S16x16 v1 v3)) (tapsK 16 slices_S288x3136_o16_0_S16x3136 slices_S16x288_o0_16_S16x16 v1 v3)) (tapsK 32 slices_S288x3136_o32_0_S16x3136 slices_S16x288_o0_32_S16x16 v1 v3)) (tapsK 48 slices_S288x3136_o48_0_S16x3136 slices_S16x288_o0_48_S16x16 v1 v3)) (tapsK 64 slices_S288x3136_o64_0_S16x3136 slices_S16x288_o0_64_S16x16 v1 v3)) (tapsK 80 slices_S288x3136_o80_0_S16x3136 slices_S16x288_o0_80_S16x16 v1 v3)) (tapsK 96 slices_S288x3136_o96_0_S16x3136 slices_S16x288_o0_96_S16x16 v1 v3)) (tapsK 112 slices_S288x3136_o112_0_S16x3136 slices_S16x288_o0_112_S16x16 v1 v3)) (tapsK 128 slices_S288x3136_o128_0_S16x3136 slices_S16x288_o0_128_S16x16 v1 v3)) (tapsK 144 slices_S288x3136_o144_0_S16x3136 slices_S16x288_o0_144_S16x16 v1 v3)) (tapsK 160 slices_S288x3136_o160_0_S16x3136 slices_S16x288_o0_160_S16x16 v1 v3)) (tapsK 176 slices_S288x3136_o176_0_S16x3136 slices_S16x288_o0_176_S16x16 v1 v3)) (tapsK 192 slices_S288x3136_o192_0_S16x3136 slices_S16x288_o0_192_S16x16 v1 v3)) (tapsK 208 slices_S288x3136_o208_0_S16x3136 slices_S16x288_o0_208_S16x16 v1 v3)) (tapsK 224 slices_S288x3136_o224_0_S16x3136 slices_S16x288_o0_224_S16x16 v1 v3)) (tapsK 240 slices_S288x3136_o240_0_S16x3136 slices_S16x288_o0_240_S16x16 v1 v3)) (tapsK 256 slices_S288x3136_o256_0_S16x3136 slices_S16x288_o0_256_S16x16 v1 v3)) (tapsK 272 slices_S288x3136_o272_0_S16x3136 slices_S16x288_o0_272_S16x16 v1 v3))) shapeCasts_S16x3136_S1x16x3136

/-- The body's four stretches compose to it. -/
theorem stored_eq {F : FTy → Type} [FloatOps F] (v0 : Vec F S1x288x3136 .f32) (v2 : Vec F S16x288 .f32) :
    stored v0 v2 = blockTerm (shapeCast S288x3136 v0 shapeCasts_S1x288x3136_S288x3136) (shapeCast S16x288 v2 shapeCasts_S16x288_S16x288) := rfl

/-- At element (u, f', l), at the extended reals: minus the distance between column l of the slab and weight row f'. -/
theorem blockTerm_apply (v1 : FVec Ideal S288x3136 .f32) (v3 : FVec Ideal S16x288 .f32) (u : Fin 1) (f' : Fin 16) (l : Fin 3136) :
    blockTerm (F := Ideal) v1 v3 (ix3 u f' l) = - L1.dist (fun k => v1 (ix2 k l)) (fun k => v3 (ix2 f' k)) := by
  unfold blockTerm
  refine (shapeCast_ab_1ab_apply _ shapeCasts_S16x3136_S1x16x3136 u f' l).trans ?_
  show Ideal.ofBits .f32 0x00000000#32 - ((((((((((((((((((Ideal.ofBits .f32 0x00000000#32 + tapsK 0 slices_S288x3136_o0_0_S16x3136 slices_S16x288_o0_0_S16x16 v1 v3 (ix2 f' l)) + tapsK 16 slices_S288x3136_o16_0_S16x3136 slices_S16x288_o0_16_S16x16 v1 v3 (ix2 f' l)) + tapsK 32 slices_S288x3136_o32_0_S16x3136 slices_S16x288_o0_32_S16x16 v1 v3 (ix2 f' l)) + tapsK 48 slices_S288x3136_o48_0_S16x3136 slices_S16x288_o0_48_S16x16 v1 v3 (ix2 f' l)) + tapsK 64 slices_S288x3136_o64_0_S16x3136 slices_S16x288_o0_64_S16x16 v1 v3 (ix2 f' l)) + tapsK 80 slices_S288x3136_o80_0_S16x3136 slices_S16x288_o0_80_S16x16 v1 v3 (ix2 f' l)) + tapsK 96 slices_S288x3136_o96_0_S16x3136 slices_S16x288_o0_96_S16x16 v1 v3 (ix2 f' l)) + tapsK 112 slices_S288x3136_o112_0_S16x3136 slices_S16x288_o0_112_S16x16 v1 v3 (ix2 f' l)) + tapsK 128 slices_S288x3136_o128_0_S16x3136 slices_S16x288_o0_128_S16x16 v1 v3 (ix2 f' l)) + tapsK 144 slices_S288x3136_o144_0_S16x3136 slices_S16x288_o0_144_S16x16 v1 v3 (ix2 f' l)) + tapsK 160 slices_S288x3136_o160_0_S16x3136 slices_S16x288_o0_160_S16x16 v1 v3 (ix2 f' l)) + tapsK 176 slices_S288x3136_o176_0_S16x3136 slices_S16x288_o0_176_S16x16 v1 v3 (ix2 f' l)) + tapsK 192 slices_S288x3136_o192_0_S16x3136 slices_S16x288_o0_192_S16x16 v1 v3 (ix2 f' l)) + tapsK 208 slices_S288x3136_o208_0_S16x3136 slices_S16x288_o0_208_S16x16 v1 v3 (ix2 f' l)) + tapsK 224 slices_S288x3136_o224_0_S16x3136 slices_S16x288_o0_224_S16x16 v1 v3 (ix2 f' l)) + tapsK 240 slices_S288x3136_o240_0_S16x3136 slices_S16x288_o0_240_S16x16 v1 v3 (ix2 f' l)) + tapsK 256 slices_S288x3136_o256_0_S16x3136 slices_S16x288_o0_256_S16x16 v1 v3 (ix2 f' l)) + tapsK 272 slices_S288x3136_o272_0_S16x3136 slices_S16x288_o0_272_S16x16 v1 v3 (ix2 f' l)) = _
  simp only [tapsK_apply, Ideal.ofBits_zero_f32, zero_add, zero_sub]
  rfl

/-- The same of the stored value, from the two input blocks. -/
theorem stored_apply (v0 : FVec Ideal S1x288x3136 .f32) (v2 : FVec Ideal S16x288 .f32) (u : Fin 1) (f' : Fin 16) (l : Fin 3136) :
    stored (F := Ideal) v0 v2 (ix3 u f' l) = - L1.dist (fun k => v0 (ix3 (0 : Fin 1) k l)) (fun k => v2 (ix2 f' k)) := by
  rw [stored_eq, blockTerm_apply]
  have ha : (fun k : Fin 288 => shapeCast S288x3136 v0 shapeCasts_S1x288x3136_S288x3136 (ix2 k l)) = fun k => v0 (ix3 (0 : Fin 1) k l) :=
    funext fun k => shapeCast_1ab_ab_apply v0 _ k l
  have hb : (fun k : Fin 288 => shapeCast S16x288 v2 shapeCasts_S16x288_S16x288 (ix2 f' k)) = fun k => v2 (ix2 f' k) := by
    rw [shapeCast_self]
  rw [ha, hb]

/-- With the input blocks a slab of the patch array and sixteen rows of the flattened weights. -/
theorem block_value (X : FVec Ideal S16x288x3136 .f32) (Wc : FVec Ideal S64x288 .f32)
    (x0 : FVec Ideal S1x288x3136 .f32) (x1 : FVec Ideal S16x288 .f32) (n : Fin 16) (f : Fin 16 → Fin 64)
    (hx : ∀ (k : Fin 288) (l : Fin 3136), x0 (ix3 (0 : Fin 1) k l) = X (ix3 n k l))
    (hw : ∀ (f' : Fin 16) (k : Fin 288), x1 (ix2 f' k) = Wc (ix2 (f f') k))
    (u : Fin 1) (f' : Fin 16) (l : Fin 3136) :
    stored (F := Ideal) x0 x1 (ix3 u f' l) = - L1.dist (L1.col X n l) (L1.row Wc (f f')) := by
  rw [stored_apply]
  have ha : (fun k => x0 (ix3 (0 : Fin 1) k l)) = L1.col X n l := funext fun k => hx k l
  have hb : (fun k => x1 (ix2 f' k)) = L1.row Wc (f f') := funext fun k => hw f' k
  rw [ha, hb]

end Cert.KernelIdeal.Block

end
-- ==== Proof.KernelBlocksAt.lean ====
/-
  Where the three blocks of a grid point sit, and what the point writes back, for ARBITRARY arrays.

  At grid point t = (n, ft): the slab block is batch entry n of the [16, 288, 3136] array (whatever ft), the weight
  block rows 16·ft .. 16·ft + 15 of the [64, 288] array (whatever n), the output block rows 16·ft .. 16·ft + 15 of batch
  entry n of the [16, 64, 3136] array. Reading the first two through their blocks and storing `stored` of them is
  therefore reading, through the output's block, the one array `out X Wc` = −dist (X[n, ·, l]) (Wc[f, ·]) at (n, f, l)
  (`written_block`). X and Wc are variables here: what the launch actually finds in those arrays is substituted
  afterwards, so that nothing about how they were computed is ever looked at.
-/
import proofs.«110658_j30760555774424_2_alg».proof.Proof.KernelIdealRegion
import proofs.«110658_j30760555774424_2_alg».proof.Proof.KernelBlock
import proofs.«110658_j30760555774424_2_alg».proof.Proof.TapSums
import Idealize.ShloMosaic.Lib.Pipeline.Value

set_option maxRecDepth 16384

noncomputable section

namespace Cert.KernelIdeal.Out

open Cert.KernelIdeal.Gen Cert.KernelIdeal.Region Cert.KernelIdeal.Block
open Idealize.ShloMosaic Idealize.ShloMosaic.TcCoe Idealize.ShloMosaic.ValueIdx
open Idealize.SL Idealize.SL.Sem
open Idealize.ShloMosaic.Pipeline (Dat Cfg Window)

/-- The output array as one function of the patch array and the flattened weights: minus the accumulated distances. -/
def out (X : FVec Ideal S16x288x3136 .f32) (Wc : FVec Ideal S64x288 .f32) : FVec Ideal S16x64x3136 .f32 :=
  fun j => - L1.distArr X Wc j

theorem out_apply (X : FVec Ideal S16x288x3136 .f32) (Wc : FVec Ideal S64x288 .f32) (n : Fin 16) (f : Fin 64) (l : Fin 3136) :
    out X Wc (ix3 n f l) = - L1.dist (L1.col X n l) (L1.row Wc f) := rfl

theorem hz3 : (![0, 0, 0] : Fin 3 → Nat) = fun _ => 0 := funext fun a => by fin_cases a <;> rfl
theorem hz2 : (![0, 0] : Fin 2 → Nat) = fun _ => 0 := funext fun a => by fin_cases a <;> rfl

/-- Where the three blocks sit at a grid point: the slab's batch entry is the output block's, its other two block
    indices zero; the weight block's row index is the output block's second index, its column index zero; the output
    block's indices range over 16 × 4 × 1. -/
theorem idx_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 2) = win0_2.index t (1 : Fin 3) ∧ win0_1.index t (1 : Fin 2) = 0
    ∧ win0_2.index t (0 : Fin 3) ≤ 15 ∧ win0_2.index t (1 : Fin 3) ≤ 3 ∧ win0_2.index t (2 : Fin 3) = 0 :=
  (by decide +kernel : ∀ t : Fin grid0.N, _)

/-- Every (batch entry, row tile) is some grid point's output block. -/
theorem idx_onto : ∀ (q0 : Fin 16) (q1 : Fin 4), ∃ t : Fin cfg0.N, win0_2.index t = ![q0.val, q1.val, 0] :=
  (by decide +kernel : ∀ (q0 : Fin 16) (q1 : Fin 4), ∃ t : Fin grid0.N, win0_2.index t = ![q0.val, q1.val, 0])

/-- An array read through the slab block at point t is its batch entry n, n the output block's first index. -/
theorem slab_read (A : FVec Ideal S16x288x3136 .f32) (t : Fin cfg0.N) (n : Fin 16) (hn : win0_2.index t (0 : Fin 3) = n.val)
    (k : Fin 288) (l : Fin 3136) :
    (((cfg0.win 0).blk t).view.read (Elt Ideal) A : Vec Ideal S1x288x3136 .f32) (ix3 (0 : Fin 1) k l) = A (ix3 n k l) := by
  obtain ⟨e0, e1, e2, -, -, -, -, -⟩ := idx_facts t
  rw [View.read_apply]
  refine congrArg A ?_
  funext a
  apply Fin.ext
  match a with
  | ⟨0, _⟩ => show win0_0.index t (0 : Fin 3) * 1 + 1 * 0 = n.val; omega
  | ⟨1, _⟩ => show win0_0.index t (1 : Fin 3) * 288 + 1 * k.val = k.val; omega
  | ⟨2, _⟩ => show win0_0.index t (2 : Fin 3) * 3136 + 1 * l.val = l.val; omega

/-- An array read through the weight block at point t is its rows 16·ft .. 16·ft + 15, ft the output block's second index. -/
theorem rows_read (B : FVec Ideal S64x288 .f32) (t : Fin cfg0.N) (f : Fin 16 → Fin 64)
    (hf : ∀ f' : Fin 16, (f f').val = win0_2.index t (1 : Fin 3) * 16 + f'.val) (f' : Fin 16) (k : Fin 288) :
    (((cfg0.win 1).blk t).view.read (Elt Ideal) B : Vec Ideal S16x288 .f32) (ix2 f' k) = B (ix2 (f f') k) := by
  obtain ⟨-, -, -, e3, e4, -, -, -⟩ := idx_facts t
  have hf' := hf f'
  rw [View.read_apply]
  refine congrArg B ?_
  funext a
  apply Fin.ext
  match a with
  | ⟨0, _⟩ => show win0_1.index t (0 : Fin 2) * 16 + 1 * f'.val = (f f').val; omega
  | ⟨1, _⟩ => show win0_1.index t (1 : Fin 2) * 288 + 1 * k.val = k.val; omega

/-- What is stored at point t from the two arrays read through their blocks is `out` of the two arrays read through the
    output's block. -/
theorem written_block (X : FVec Ideal S16x288x3136 .f32) (Wc : FVec Ideal S64x288 .f32) (t : Fin cfg0.N) :
    (stored (F := Ideal) (((cfg0.win 0).blk t).view.read (Elt Ideal) X) (((cfg0.win 1).blk t).view.read (Elt Ideal) Wc) : Vec Ideal S1x16x3136 .f32)
      = ((cfg0.win 2).blk t).view.read (Elt Ideal) (out X Wc) := by
  obtain ⟨-, -, -, -, -, b0, b1, e5⟩ := idx_facts t
  refine funext fun (j : S1x16x3136.Idx) => ?_
  obtain ⟨u, f', l, rfl⟩ : ∃ (u : Fin 1) (f' : Fin 16) (l : Fin 3136), j = ix3 u f' l := ⟨j 0, j 1, j 2, eq_ix3 j⟩
  have hu : u.val = 0 := by omega
  let n : Fin 16 := ⟨win0_2.index t (0 : Fin 3), by omega⟩
  let f : Fin 16 → Fin 64 := fun f' => ⟨win0_2.index t (1 : Fin 3) * 16 + f'.val, by have := f'.isLt; omega⟩
  refine (block_value X Wc (((cfg0.win 0).blk t).view.read (Elt Ideal) X) (((cfg0.win 1).blk t).view.read (Elt Ideal) Wc) n f
    (fun k l => slab_read X t n rfl k l) (fun f' k => rows_read Wc t f (fun _ => rfl) f' k) u f' l).trans ?_
  rw [View.read_apply]
  refine (out_apply X Wc n (f f') l).symm.trans ?_
  refine congrArg (out X Wc) ?_
  funext a
  apply Fin.ext
  match a with
  | ⟨0, _⟩ => show win0_2.index t (0 : Fin 3) = win0_2.index t (0 : Fin 3) * 1 + 1 * u.val; omega
  | ⟨1, _⟩ => show win0_2.index t (1 : Fin 3) * 16 + f'.val = win0_2.index t (1 : Fin 3) * 16 + 1 * f'.val; omega
  | ⟨2, _⟩ => show l.val = win0_2.index t (2 : Fin 3) * 3136 + 1 * l.val; omega

/-- An index of the output array is in point t's block iff each coordinate is in the block's range on its axis. -/
theorem mem_blk (t : Fin cfg0.N) (i : S16x64x3136.Idx) :
    i ∈ ((cfg0.win 2).blk t).view.set ↔ ∀ a : Fin 3, win0_2.index t a * S1x16x3136.size a ≤ (i a).val ∧ (i a).val < win0_2.index t a * S1x16x3136.size a + S1x16x3136.size a := by
  show i ∈ ((View.whole main_v22).slice (win0_2.rect t)).set ↔ _
  rw [View.set_slice_whole, Rect.mem_set_unit]
  exact Iff.rfl

/-- The 64 output blocks cover the output array: (n, f, l) is in the block of the point with indices (n, f / 16, 0). -/
theorem covered (i : S16x64x3136.Idx) : ∃ t : Fin cfg0.N, (cfg0.win 2).flush t = true ∧ i ∈ ((cfg0.win 2).blk t).view.set := by
  have hi0 : (i 0).val < 16 := (i 0).isLt
  have hi1 : (i 1).val < 64 := (i 1).isLt
  have hi2 : (i 2).val < 3136 := (i 2).isLt
  obtain ⟨t, ht⟩ := idx_onto ⟨(i 0).val, by omega⟩ ⟨(i 1).val / 16, by omega⟩
  have q0 : win0_2.index t (0 : Fin 3) = (i 0).val := congrFun ht 0
  have q1 : win0_2.index t (1 : Fin 3) = (i 1).val / 16 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 16 ≤ (i 1).val ∧ (i 1).val < win0_2.index t (1 : Fin 3) * 16 + 16; omega
  | ⟨2, _⟩ => show win0_2.index t (2 : Fin 3) * 3136 ≤ (i 2).val ∧ (i 2).val < win0_2.index t (2 : Fin 3) * 3136 + 3136; omega

end Cert.KernelIdeal.Out

end
-- ==== Proof.KernelArray.lean ====
/-
  What the kernel's program leaves in its result.

  At every grid point the two input blocks are the patch array X and the flattened weights Wc, as the launch finds them,
  read through the point's blocks; so by `written_block` the point writes back block t of the one array `out X Wc`
  (`flushed_eq`). The 64 blocks tile the output array, so after the launch it is `out X Wc` (`final_out`), and the
  program's result, the reshape after the launch, is `out X Wc` reshaped to [16, 64, 56, 56] (`result_eq`, `run`).
-/
import proofs.«110658_j30760555774424_2_alg».proof.Proof.KernelIdealRegion
import proofs.«110658_j30760555774424_2_alg».proof.Proof.KernelBlocksAt
import Idealize.ShloMosaic.Lib.Pipeline.Value
import Idealize.ShloMosaic.Lib.StableHlo.Run

set_option maxRecDepth 16384

noncomputable section

namespace Cert.KernelIdeal.Out

open Cert.KernelIdeal.Gen Cert.KernelIdeal.Region
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- What point t writes back is block t of `out` of the patch array and the flattened weights as the launch finds them. -/
theorem flushed_eq (c : Dev nD) (t : Fin cfg0.N) :
    (dats m 0 c).flushed 2 t = ((cfg0.win 2).blk t).view.read (Elt Ideal) (out (V m c main_v20) (V m c main_v21)) := by
  show (cfg0.win 2).cut (grid0.coords t) ((dats m 0 c).after 2 t) = _
  rw [after_o]
  unfold leaves
  rw [View.canon_unit_zero hz3]
  simp only [View.ld_unit_zero (S := S1x288x3136) hz3, View.ld_unit_zero (S := S16x288) hz2]
  exact written_block (V m c main_v20) (V m c main_v21) t

/-- After the launch the output array is `out` of the patch array and the flattened weights. -/
theorem final_out (c : Dev nD) : (dats m 0 c).arrAt 2 cfg0.N = out (V m c main_v20) (V m c main_v21) :=
  (dats m 0 c).arrAt_eq_of_cover 2 (out (V m c main_v20) (V m c main_v21)) (fun t _ => flushed_eq m c t) covered

/-- The program's result: the reshape after the launch, of the output array. -/
theorem result_eq (c : Dev nD) :
    Pipeline.afterTail₀ cfgs (dats m) 0 (V0 m) [hostOps1] c main_v23
      = shapeCast S16x64x56x56 (out (V m c main_v20) (V m c main_v21)) shapeCasts_S16x64x3136_S16x64x56x56 := by
  unfold Pipeline.afterTail₀
  show StableHlo.after hostOps1 _ (Proc.devRef .tc main_v23) = _
  after_results
  rw [(Pipeline.withArrays_arr spec0 launch0.win.arr_inj c _ _ 2).trans (final_out m c)]
  rfl

/-- The run, read: the result holds `out` reshaped, the arguments are unchanged. -/
theorem run : θ_run defs (onTc (τ := τ) (main (F := Ideal))) ⟨m, fun _ => 0, ρ⟩ fun r => ∀ c : Dev nD,
      r.2.mem ((c.tc : Thread nD τ).loc main_v23)
        = shapeCast S16x64x56x56 (out (V m c main_v20) (V m c main_v21)) shapeCasts_S16x64x3136_S16x64x56x56
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v23 (Pipeline.mem_restRefs_of main_v23 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Out

end
-- ==== Proof.ReferenceValue.lean ====
/-
  What the reference's accumulator holds.

  From a zero array the reference adds the eighteen chunks in order: at (n, f, l) the accumulator ends at
  ((…((0 + (0 + taps₀)) + (0 + taps₁₆)) + …) + (0 + taps₂₇₂)), which is dist (X[n, ·, l]) (Wc[f, ·]) once the zeros are
  dropped (`accTerm_apply`); as an array it is `L1.distArr X Wc` (`accTerm_eq`), and the reference's result is that
  array reshaped to [16, 64, 56, 56] and negated (`resultOf_eq`).
-/
import proofs.«110658_j30760555774424_2_alg».proof.Proof.ReferenceOps
import proofs.«110658_j30760555774424_2_alg».proof.Proof.ReferenceChunk
import proofs.«110658_j30760555774424_2_alg».proof.Proof.TapSums

set_option maxRecDepth 65536

noncomputable section

namespace Cert.ReferenceIdeal.RefValue

open Cert.ReferenceIdeal Cert.ReferenceIdeal.Gen Cert.ReferenceIdeal.Chunk Cert.ReferenceIdeal.TwoStretch
open Idealize.ShloMosaic Idealize.ShloMosaic.ValueIdx

/-- The accumulator after the eighteenth chunk, at (n, f, l). -/
theorem accTerm_apply (X : FVec Ideal S16x288x3136 .f32) (Wc : FVec Ideal S64x288 .f32) (n : Fin 16) (f : Fin 64) (l : Fin 3136) :
    accTerm X Wc (ix3 n f l) = L1.dist (L1.col X n l) (L1.row Wc f) := by
  show ((((((((((((((((((Ideal.ofBits .f32 0x00000000#32 + tapsR 0 slices_S16x288x3136_S16x16x3136_0_0_0 slices_S64x288_S64x16_0_0 X Wc (ix3 n f l)) + tapsR 16 slices_S16x288x3136_S16x16x3136_0_16_0 slices_S64x288_S64x16_0_16 X Wc (ix3 n f l)) + tapsR 32 slices_S16x288x3136_S16x16x3136_0_32_0 slices_S64x288_S64x16_0_32 X Wc (ix3 n f l)) + tapsR 48 slices_S16x288x3136_S16x16x3136_0_48_0 slices_S64x288_S64x16_0_48 X Wc (ix3 n f l)) + tapsR 64 slices_S16x288x3136_S16x16x3136_0_64_0 slices_S64x288_S64x16_0_64 X Wc (ix3 n f l)) + tapsR 80 slices_S16x288x3136_S16x16x3136_0_80_0 slices_S64x288_S64x16_0_80 X Wc (ix3 n f l)) + tapsR 96 slices_S16x288x3136_S16x16x3136_0_96_0 slices_S64x288_S64x16_0_96 X Wc (ix3 n f l)) + tapsR 112 slices_S16x288x3136_S16x16x3136_0_112_0 slices_S64x288_S64x16_0_112 X Wc (ix3 n f l)) + tapsR 128 slices_S16x288x3136_S16x16x3136_0_128_0 slices_S64x288_S64x16_0_128 X Wc (ix3 n f l)) + tapsR 144 slices_S16x288x3136_S16x16x3136_0_144_0 slices_S64x288_S64x16_0_144 X Wc (ix3 n f l)) + tapsR 160 slices_S16x288x3136_S16x16x3136_0_160_0 slices_S64x288_S64x16_0_160 X Wc (ix3 n f l)) + tapsR 176 slices_S16x288x3136_S16x16x3136_0_176_0 slices_S64x288_S64x16_0_176 X Wc (ix3 n f l)) + tapsR 192 slices_S16x288x3136_S16x16x3136_0_192_0 slices_S64x288_S64x16_0_192 X Wc (ix3 n f l)) + tapsR 208 slices_S16x288x3136_S16x16x3136_0_208_0 slices_S64x288_S64x16_0_208 X Wc (ix3 n f l)) + tapsR 224 slices_S16x288x3136_S16x16x3136_0_224_0 slices_S64x288_S64x16_0_224 X Wc (ix3 n f l)) + tapsR 240 slices_S16x288x3136_S16x16x3136_0_240_0 slices_S64x288_S64x16_0_240 X Wc (ix3 n f l)) + tapsR 256 slices_S16x288x3136_S16x16x3136_0_256_0 slices_S64x288_S64x16_0_256 X Wc (ix3 n f l)) + tapsR 272 slices_S16x288x3136_S16x16x3136_0_272_0 slices_S64x288_S64x16_0_272 X Wc (ix3 n f l)) = _
  simp only [tapsR_apply, Ideal.ofBits_zero_f32, zero_add]
  rfl

/-- The accumulator as an array. -/
theorem accTerm_eq (X : FVec Ideal S16x288x3136 .f32) (Wc : FVec Ideal S64x288 .f32) : accTerm X Wc = L1.distArr X Wc := by
  refine funext fun (j : S16x64x3136.Idx) => ?_
  obtain ⟨n, f, l, rfl⟩ : ∃ (n : Fin 16) (f : Fin 64) (l : Fin 3136), j = ix3 n f l := ⟨j 0, j 1, j 2, eq_ix3 j⟩
  exact accTerm_apply X Wc n f l

/-- The reference's result: the accumulated distances, reshaped and negated. -/
theorem resultOf_eq (X : FVec Ideal S16x288x3136 .f32) (Wc : FVec Ideal S64x288 .f32) :
    resultOf X Wc = Host.negf (shapeCast S16x64x56x56 (L1.distArr X Wc) shapeCasts_S16x64x3136_S16x64x56x56) := by
  unfold resultOf
  rw [accTerm_eq]

end Cert.ReferenceIdeal.RefValue

end
-- ==== Proof.SharedPrefix.lean ====
/-
  The two programs lay their inputs out by the same host lines.

  Before its launch the kernel's program pads x, takes the nine shifted windows, stacks and flattens them, and flattens
  W; the reference's first operations are the same lines. So the patch array and the flattened weights the launch finds
  are the reference's `patches` and `flatW` of the same arguments: the same operations applied to the same arrays,
  never opened.
-/
import proofs.«110658_j30760555774424_2_alg».proof.Proof.KernelIdealRegion
import proofs.«110658_j30760555774424_2_alg».proof.Proof.ReferenceOps
import Idealize.ShloMosaic.Lib.StableHlo.Run

set_option maxRecDepth 65536

noncomputable section

namespace Cert.KernelIdeal.Prefix

open Cert.KernelIdeal.Gen Cert.KernelIdeal.Region
open Idealize.ShloMosaic Idealize.ShloMosaic.TcCoe Idealize.SL.Sem Idealize.ShloMosaic.StableHlo

variable (m : (ℓ : Loc nD τ sig) → Buf (Elt Ideal) ℓ)

/-- The patch array the launch finds is the reference's flattening of the nine stacked windows of the padded input. -/
theorem patches_eq (c : Dev nD) :
    (V m c main_v20 : S16x288x3136.Idx → Elt Ideal .f32)
      = Cert.ReferenceIdeal.TwoStretch.patches (F := Ideal) (m ((c.tc : Thread nD τ).loc main_arg0)) := by
  dsimp only [V, V0]
  simp only [hostOps0, hostOps0_1, hostOps0_2, List.flatten_cons, List.flatten_nil, List.append_nil, List.cons_append,
    List.nil_append]
  after_results_simp <;> rfl

/-- The flattened weights the launch finds are the reference's. -/
theorem weights_eq (c : Dev nD) :
    (V m c main_v21 : S64x288.Idx → Elt Ideal .f32)
      = Cert.ReferenceIdeal.TwoStretch.flatW (F := Ideal) (m ((c.tc : Thread nD τ).loc main_arg1)) := by
  dsimp only [V, V0]
  simp only [hostOps0, hostOps0_1, hostOps0_2, List.flatten_cons, List.flatten_nil, List.append_nil, List.cons_append,
    List.nil_append]
  after_results_simp <;> rfl

end Cert.KernelIdeal.Prefix

end
-- ==== Proof.lean ====
/-
  The five claims about the L1-distance ("adder") correlation kernel and its reference.

  out[n, f, i, j] = −Σ_{c, kh, kw} |x_pad[n, c, i+kh, j+kw] − W[f, c, kh, kw]|. Both programs first lay x out as the patch
  array X[n, k, l] (k the 288 flattened (c, kh, kw), l the 3136 flattened (i, j)) and W as Wc[f, k], by the same host
  lines, and both add the 288 absolute differences sixteen at a time, left to right from zero. The kernel does so per
  grid point (n, row tile) inside one launch, negates by 0 − ·, and the host reshapes; the reference works on whole
  arrays, reshapes, and negates. At the extended reals the two results are the same function of X and Wc, element by
  element: the same terms are added in the same order, so no finiteness is needed; only 0 + a = a and 0 − a = −a.

  The two kernel programs run to their end leaving their arguments unchanged (Proof/KernelRegion.lean at the word
  level, Proof/KernelIdealRegion.lean at the extended reals: the launch's run with its host lines around it); the
  reference's frame is its run (Proof/ReferenceRun.lean), with the result dropped. The idealization rewrote nothing, so `preserves` is `True`.
-/
import proofs.«110658_j30760555774424_2_alg».proof.Defs
import proofs.«110658_j30760555774424_2_alg».proof.Proof.Gen.Kernel
import proofs.«110658_j30760555774424_2_alg».proof.Proof.Gen.KernelIdeal
import proofs.«110658_j30760555774424_2_alg».proof.Proof.Gen.ReferenceIdeal
import proofs.«110658_j30760555774424_2_alg».proof.Proof.Gen.Pre_finite_inputs
import proofs.«110658_j30760555774424_2_alg».proof.Proof.ReferenceRun
import proofs.«110658_j30760555774424_2_alg».proof.Proof.KernelRegion
import proofs.«110658_j30760555774424_2_alg».proof.Proof.KernelIdealRegion
import proofs.«110658_j30760555774424_2_alg».proof.Proof.KernelArray
import proofs.«110658_j30760555774424_2_alg».proof.Proof.ReferenceValue
import proofs.«110658_j30760555774424_2_alg».proof.Proof.SharedPrefix
import Idealize.ShloMosaic.Adequacy
import Idealize.ShloMosaic.Init

noncomputable section

namespace Cert.Proof

open Idealize.ShloMosaic Idealize.ShloMosaic.TcCoe Idealize.SL.Sem

/-- The word-level kernel program runs to its end and leaves x and W unchanged. -/
theorem frame_kernel : Cert.frame_Kernel := fun m ρ _ => Cert.Kernel.Region.frame m ρ

/-- So does the idealized kernel program. -/
theorem frame_kernelIdeal : Cert.frame_KernelIdeal := fun m ρ _ => Cert.KernelIdeal.Region.frame m ρ

/-- And the reference: its run, with the result dropped. -/
theorem frame_reference : Cert.frame_ReferenceIdeal := fun m ρ _ =>
  (θ_run Cert.ReferenceIdeal.defs _ _).mono (fun _ h c => (h c).2) (Cert.ReferenceIdeal.TwoStretch.run (F := Ideal) m ρ)

/-- The reference's result of the kernel's arguments is the kernel's result: −dist reshaped on one side, dist reshaped
    and negated on the other, of the same patch array and weights; a reshape moves elements and a negation acts on
    each, so the two commute. -/
theorem results_agree (m : (ℓ : Loc Cert.KernelIdeal.nD Cert.KernelIdeal.τ Cert.KernelIdeal.sig) → Buf (Elt Ideal) ℓ)
    (c : Dev Cert.KernelIdeal.nD) :
    Cert.ReferenceIdeal.TwoStretch.resultOf (F := Ideal)
        (Cert.ReferenceIdeal.TwoStretch.patches (m ((c.tc : Thread Cert.KernelIdeal.nD Cert.KernelIdeal.τ).loc Cert.KernelIdeal.main_arg0)))
        (Cert.ReferenceIdeal.TwoStretch.flatW (m ((c.tc : Thread Cert.KernelIdeal.nD Cert.KernelIdeal.τ).loc Cert.KernelIdeal.main_arg1)))
      = shapeCast Cert.KernelIdeal.S16x64x56x56
          (Cert.KernelIdeal.Out.out (Cert.KernelIdeal.Region.V m c Cert.KernelIdeal.main_v20) (Cert.KernelIdeal.Region.V m c Cert.KernelIdeal.main_v21))
          Cert.KernelIdeal.Gen.shapeCasts_S16x64x3136_S16x64x56x56 := by
  rw [Cert.ReferenceIdeal.RefValue.resultOf_eq, Cert.KernelIdeal.Prefix.patches_eq, Cert.KernelIdeal.Prefix.weights_eq]
  rfl

/-- From memories agreeing on x and W both idealized programs run to their end with equal results and unchanged
    arguments. -/
theorem algebraic : Cert.algebraic_KernelIdeal_ReferenceIdeal := by
  intro m ρ m' ρ' _ hagree
  refine ⟨_, Cert.KernelIdeal.Out.run m ρ, ?_⟩
  refine (θ_run Cert.ReferenceIdeal.defs _ _).mono (fun _ h c => ⟨(h c).1.trans ?_, (h c).2⟩)
    (Cert.ReferenceIdeal.TwoStretch.run (F := Ideal) m' ρ')
  rw [(hagree c).1, (hagree c).2]
  exact results_agree m c

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
